-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v49)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v49) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v62) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S256x128 : Shape := ⟨2, ![256, 128]⟩
abbrev S256 : Shape := ⟨1, ![256]⟩
abbrev S128x256 : Shape := ⟨2, ![128, 256]⟩
abbrev S128 : Shape := ⟨1, ![128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S256x128 : S_.BroadcastsInDim S256x128 (![] : Fin 0 → Fin S256x128.rank)
  reducesTo_S256x128_S_d0_1 : S256x128.ReducesTo [0, 1] S_
  bcast_S_S256 : S_.BroadcastsInDim S256 (![] : Fin 0 → Fin S256.rank)
  reducesTo_S256_S_d0 : S256.ReducesTo [0] S_
  bcast_S_S128x256 : S_.BroadcastsInDim S128x256 (![] : Fin 0 → Fin S128x256.rank)
  reducesTo_S128x256_S_d0_1 : S128x256.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg5 : FVec F S128x256 .f32) (main_arg6 : FVec F S128 .f32) (main_arg7 : FVec F S128x256 .f32) (main_v13 : IVec S_ 1) (main_v16 : IVec S256x128 1) : IVec S_ 1 :=
  let main_c_5 : IVec S_ 1 := constantI S_ 1 1#1
  let main_v17 : IVec S_ 1 := (fun x v => Host.reduce IntOp.andi x v reducesTo_S256x128_S_d0_1 h_S_) main_v16 main_c_5
  let main_v18 : IVec S_ 1 := andi main_v13 main_v17
  let main_v19 : FVec F S128x256 .f32 := Host.absf main_arg5
  let main_cst_6 : FVec F S_ .f32 := constant S_ .f32 0x7F800000#32
  let main_v20 : FVec F S128x256 .f32 := broadcastInDim S128x256 ![] bcast_S_S128x256 main_cst_6
  let main_v21 : IVec S128x256 1 := cmpf .olt main_v19 main_v20
  let main_c_7 : IVec S_ 1 := constantI S_ 1 1#1
  let main_v22 : IVec S_ 1 := (fun x v => Host.reduce IntOp.andi x v reducesTo_S128x256_S_d0_1 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x256 .f32 := Host.absf main_arg7
  let main_cst_10 : FVec F S_ .f32 := constant S_ .f32 0x7F800000#32
  let main_v30 : FVec F S128x256 .f32 := broadcastInDim S128x256 ![] bcast_S_S128x256 main_cst_10
  let main_v31 : IVec S128x256 1 := cmpf .olt main_v29 main_v30
  let main_c_11 : IVec S_ 1 := constantI S_ 1 1#1
  let main_v32 : IVec S_ 1 := (fun x v => Host.reduce IntOp.andi x v reducesTo_S128x256_S_d0_1 h_S_) main_v31 main_c_11
  let main_v33 : IVec S_ 1 := andi main_v28 main_v32
  main_v33

def fn {F : FTy → Type} [FloatOps F] (main_arg0 : FVec F S50000x128 .f32) (main_arg1 : IVec S2x800000 32) (main_arg2 : FVec F S256x128 .f32) (main_arg3 : FVec F S256 .f32) (main_arg4 : FVec F S256x128 .f32) (main_arg5 : FVec F S128x256 .f32) (main_arg6 : FVec F S128 .f32) (main_arg7 : FVec F S128x256 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S256x128 .f32 := Host.absf main_arg2
  let main_cst_0 : FVec F S_ .f32 := constant S_ .f32 0x7F800000#32
  let main_v5 : FVec F S256x128 .f32 := broadcastInDim S256x128 ![] bcast_S_S256x128 main_cst_0
  let main_v6 : IVec S256x128 1 := cmpf .olt main_v4 main_v5
  let main_c_1 : IVec S_ 1 := constantI S_ 1 1#1
  let main_v7 : IVec S_ 1 := (fun x v => Host.reduce IntOp.andi x v reducesTo_S256x128_S_d0_1 h_S_) main_v6 main_c_1
  let main_v8 : IVec S_ 1 := andi main_v3 main_v7
  let main_v9 : FVec F S256 .f32 := Host.absf main_arg3
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256x128 .f32 := Host.absf main_arg4
  let main_cst_4 : FVec F S_ .f32 := constant S_ .f32 0x7F800000#32
  let main_v15 : FVec F S256x128 .f32 := broadcastInDim S256x128 ![] bcast_S_S256x128 main_cst_4
  let main_v16 : IVec S256x128 1 := cmpf .olt main_v14 main_v15
  fn_part1 (F := F) main_arg5 main_arg6 main_arg7 main_v13 main_v16
-- ==== Kernel.lean ====
abbrev S50000x128 : Shape := ⟨2, ![50000, 128]⟩
abbrev S2x800000 : Shape := ⟨2, ![2, 800000]⟩
abbrev S256x128 : Shape := ⟨2, ![256, 128]⟩
abbrev S256 : Shape := ⟨1, ![256]⟩
abbrev S128x256 : Shape := ⟨2, ![128, 256]⟩
abbrev S128 : Shape := ⟨1, ![128]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x128 : Shape := ⟨2, ![800000, 128]⟩
abbrev S50000 : Shape := ⟨1, ![50000]⟩
abbrev S50000x1 : Shape := ⟨2, ![50000, 1]⟩
abbrev S1x256 : Shape := ⟨2, ![1, 256]⟩
abbrev S50000x256 : Shape := ⟨2, ![50000, 256]⟩
abbrev S2000x128 : Shape := ⟨2, ![2000, 128]⟩
abbrev S2000x256 : Shape := ⟨2, ![2000, 256]⟩
abbrev S800000x256 : Shape := ⟨2, ![800000, 256]⟩
abbrev S1x128 : Shape := ⟨2, ![1, 128]⟩

abbrev nBuf : Space → Nat
  | .hbm => 70
  | .vmem => 18
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S256x128, .f32⟩
  | .hbm, ⟨3, _⟩ => ⟨S256, .f32⟩
  | .hbm, ⟨4, _⟩ => ⟨S256x128, .f32⟩
  | .hbm, ⟨5, _⟩ => ⟨S128x256, .f32⟩
  | .hbm, ⟨6, _⟩ => ⟨S128, .f32⟩
  | .hbm, ⟨7, _⟩ => ⟨S128x256, .f32⟩
  | .hbm, ⟨8, _⟩ => ⟨S1x800000, .i32⟩
  | .hbm, ⟨9, _⟩ => ⟨S800000, .i32⟩
  | .hbm, ⟨10, _⟩ => ⟨S1x800000, .i32⟩
  | .hbm, ⟨11, _⟩ => ⟨S800000, .i32⟩
  | .hbm, ⟨12, _⟩ => ⟨S_, .i32⟩
  | .hbm, ⟨13, _⟩ => ⟨S800000, .i32⟩
  | .hbm, ⟨14, _⟩ => ⟨S800000, .i1⟩
  | .hbm, ⟨15, _⟩ => ⟨S_, .i32⟩
  | .hbm, ⟨16, _⟩ => ⟨S800000, .i32⟩
  | .hbm, ⟨17, _⟩ => ⟨S800000, .i32⟩
  | .hbm, ⟨18, _⟩ => ⟨S800000, .i32⟩
  | .hbm, ⟨19, _⟩ => ⟨S800000x1, .i32⟩
  | .hbm, ⟨20, _⟩ => ⟨S800000x128, .f32⟩
  | .hbm, ⟨21, _⟩ => ⟨S_, .f32⟩
  | .hbm, ⟨22, _⟩ => ⟨S50000x128, .f32⟩
  | .hbm, ⟨23, _⟩ => ⟨S800000x1, .i32⟩
  | .hbm, ⟨24, _⟩ => ⟨S50000x128, .f32⟩
  | .hbm, ⟨25, _⟩ => ⟨S_, .f32⟩
  | .hbm, ⟨26, _⟩ => ⟨S800000, .f32⟩
  | .hbm, ⟨27, _⟩ => ⟨S_, .f32⟩
  | .hbm, ⟨28, _⟩ => ⟨S50000, .f32⟩
  | .hbm, ⟨29, _⟩ => ⟨S800000x1, .i32⟩
  | .hbm, ⟨30, _⟩ => ⟨S50000, .f32⟩
  | .hbm, ⟨31, _⟩ => ⟨S_, .f32⟩
  | .hbm, ⟨32, _⟩ => ⟨S50000, .f32⟩
  | .hbm, ⟨33, _⟩ => ⟨S50000, .f32⟩
  | .hbm, ⟨34, _⟩ => ⟨S50000x1, .f32⟩
  | .hbm, ⟨35, _⟩ => ⟨S50000x128, .f32⟩
  | .hbm, ⟨36, _⟩ => ⟨S50000x128, .f32⟩
  | .hbm, ⟨37, _⟩ => ⟨S128x256, .f32⟩
  | .hbm, ⟨38, _⟩ => ⟨S128x256, .f32⟩
  | .hbm, ⟨39, _⟩ => ⟨S1x256, .f32⟩
  | .hbm, ⟨40, _⟩ => ⟨S50000x256, .f32⟩
  | .hbm, ⟨41, _⟩ => ⟨S_, .i32⟩
  | .hbm, ⟨42, _⟩ => ⟨S800000, .i32⟩
  | .hbm, ⟨43, _⟩ => ⟨S800000, .i1⟩
  | .hbm, ⟨44, _⟩ => ⟨S_, .i32⟩
  | .hbm, ⟨45, _⟩ => ⟨S800000, .i32⟩
  | .hbm, ⟨46, _⟩ => ⟨S800000, .i32⟩
  | .hbm, ⟨47, _⟩ => ⟨S800000, .i32⟩
  | .hbm, ⟨48, _⟩ => ⟨S800000x1, .i32⟩
  | .hbm, ⟨49, _⟩ => ⟨S800000x256, .f32⟩
  | .hbm, ⟨50, _⟩ => ⟨S_, .f32⟩
  | .hbm, ⟨51, _⟩ => ⟨S50000x256, .f32⟩
  | .hbm, ⟨52, _⟩ => ⟨S800000x1, .i32⟩
  | .hbm, ⟨53, _⟩ => ⟨S50000x256, .f32⟩
  | .hbm, ⟨54, _⟩ => ⟨S_, .f32⟩
  | .hbm, ⟨55, _⟩ => ⟨S800000, .f32⟩
  | .hbm, ⟨56, _⟩ => ⟨S_, .f32⟩
  | .hbm, ⟨57, _⟩ => ⟨S50000, .f32⟩
  | .hbm, ⟨58, _⟩ => ⟨S800000x1, .i32⟩
  | .hbm, ⟨59, _⟩ => ⟨S50000, .f32⟩
  | .hbm, ⟨60, _⟩ => ⟨S_, .f32⟩
  | .hbm, ⟨61, _⟩ => ⟨S50000, .f32⟩
  | .hbm, ⟨62, _⟩ => ⟨S50000, .f32⟩
  | .hbm, ⟨63, _⟩ => ⟨S50000x1, .f32⟩
  | .hbm, ⟨64, _⟩ => ⟨S50000x256, .f32⟩
  | .hbm, ⟨65, _⟩ => ⟨S50000x256, .f32⟩
  | .hbm, ⟨66, _⟩ => ⟨S256x128, .f32⟩
  | .hbm, ⟨67, _⟩ => ⟨S256x128, .f32⟩
  | .hbm, ⟨68, _⟩ => ⟨S1x128, .f32⟩
  | .hbm, ⟨69, _⟩ => ⟨S50000x128, .f32⟩
  | .local _ .vmem, ⟨0, _⟩ => ⟨S2000x128, .f32⟩
  | .local _ .vmem, ⟨1, _⟩ => ⟨S2000x128, .f32⟩
  | .local _ .vmem, ⟨2, _⟩ => ⟨S2000x128, .f32⟩
  | .local _ .vmem, ⟨3, _⟩ => ⟨S2000x128, .f32⟩
  | .local _ .vmem, ⟨4, _⟩ => ⟨S128x256, .f32⟩
  | .local _ .vmem, ⟨5, _⟩ => ⟨S128x256, .f32⟩
  | .local _ .vmem, ⟨6, _⟩ => ⟨S1x256, .f32⟩
  | .local _ .vmem, ⟨7, _⟩ => ⟨S2000x256, .f32⟩
  | .local _ .vmem, ⟨8, _⟩ => ⟨S2000x256, .f32⟩
  | .local _ .vmem, ⟨9, _⟩ => ⟨S2000x256, .f32⟩
  | .local _ .vmem, ⟨10, _⟩ => ⟨S2000x256, .f32⟩
  | .local _ .vmem, ⟨11, _⟩ => ⟨S2000x256, .f32⟩
  | .local _ .vmem, ⟨12, _⟩ => ⟨S2000x256, .f32⟩
  | .local _ .vmem, ⟨13, _⟩ => ⟨S256x128, .f32⟩
  | .local _ .vmem, ⟨14, _⟩ => ⟨S256x128, .f32⟩
  | .local _ .vmem, ⟨15, _⟩ => ⟨S1x128, .f32⟩
  | .local _ .vmem, ⟨16, _⟩ => ⟨S2000x128, .f32⟩
  | .local _ .vmem, ⟨17, _⟩ => ⟨S2000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_v4 : Ref sig .tc := ⟨.hbm, 13, rfl⟩
abbrev main_v5 : Ref sig .tc := ⟨.hbm, 14, rfl⟩
abbrev main_c_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_1 : Ref sig .tc := ⟨.hbm, 25, rfl⟩
abbrev main_v14 : Ref sig .tc := ⟨.hbm, 26, rfl⟩
abbrev main_cst_2 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_c_4 : Ref sig .tc := ⟨.hbm, 41, rfl⟩
abbrev main_v27 : Ref sig .tc := ⟨.hbm, 42, rfl⟩
abbrev main_v28 : Ref sig .tc := ⟨.hbm, 43, rfl⟩
abbrev main_c_5 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_cst_6 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_cst_7 : Ref sig .tc := ⟨.hbm, 54, rfl⟩
abbrev main_v37 : Ref sig .tc := ⟨.hbm, 55, rfl⟩
abbrev main_cst_8 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_cst_9 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S2000x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x256 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S256x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S256x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S2000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  transposes_S256x128_S128x256_1_0 : S256x128.Transposes [1, 0] S128x256
  shapeCasts_S256_S1x256 : S256.ShapeCasts S1x256
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  bitsLt_bf16_f32 : FTy.bits .bf16 < FTy.bits .f32
  inb_S128x256_S128x256_0_0 : ∀ a, (![0, 0] : Fin 2 → Nat) a + S128x256.size a ≤ S128x256.size a
  h_S128x256 : 0 < S128x256.numel
  shapeCasts_S128x256_S128x256 : S128x256.ShapeCasts S128x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S2000x256 : S1x256.Broadcasts S2000x256
  inb_S2000x256_S2000x256_0_0 : ∀ a, (![0, 0] : Fin 2 → Nat) a + S2000x256.size a ≤ S2000x256.size a
  h_S2000x256 : 0 < S2000x256.numel
  bcast_S_S50000x256 : S_.BroadcastsInDim S50000x256 (![] : Fin 0 → Fin S50000x256.rank)
  bcast_S50000x1_S50000x256_0_1 : S50000x1.BroadcastsInDim S50000x256 (![0, 1] : Fin 2 → Fin S50000x256.rank)
  transposes_S128x256_S256x128_1_0 : S128x256.Transposes [1, 0] S256x128
  shapeCasts_S128_S1x128 : S128.ShapeCasts S1x128
  shapeCasts_S2000x256_S2000x256 : S2000x256.ShapeCasts S2000x256
  inb_S256x128_S256x128_0_0 : ∀ a, (![0, 0] : Fin 2 → Nat) a + S256x128.size a ≤ S256x128.size a
  h_S256x128 : 0 < S256x128.numel
  shapeCasts_S256x128_S256x128 : S256x128.ShapeCasts S256x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  scatter_S50000_S800000x1_S800000_n_0_0_1_wf : ScatterDims.WF S50000 S800000x1 S800000 [] [0] [0] 1
  dot_S2000x128_S128x256_S2000x256_1_0_0_1_n_n_wf : DotDims.WF S2000x128 S128x256 S2000x256 [1] [0] [0] [1] [] []
  gather_S50000x256_S800000x1_S800000x256_1_0_n_n_0_1_1256_wf : GatherDims.WF S50000x256 S800000x1 S800000x256 [1] [0] [] [0] [] 1 ![1, 256]
  scatter_S50000x256_S800000x1_S800000x256_1_0_0_1_wf : ScatterDims.WF S50000x256 S800000x1 S800000x256 [1] [0] [0] 1
  dot_S2000x256_S256x128_S2000x128_1_0_0_1_n_n_wf : DotDims.WF S2000x256 S256x128 S2000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S50000x128.size a
  hwx0_0 : ∀ i : grid0.Coords, EltTy.bits .f32 = 32 ∨ (Rect.block (s := S50000x128) S2000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x128.size a ≤ S50000x128.size a
  hwx0_1 : ∀ i : grid0.Coords, EltTy.bits .f32 = 32 ∨ (Rect.block (s := S50000x128) S2000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x256.size a ≤ S128x256.size a
  hwx0_2 : ∀ i : grid0.Coords, EltTy.bits .f32 = 32 ∨ (Rect.block (s := S128x256) S128x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x256.size a ≤ S128x256.size a
  hwx0_3 : ∀ i : grid0.Coords, EltTy.bits .f32 = 32 ∨ (Rect.block (s := S128x256) S128x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x256.size a ≤ S1x256.size a
  hwx0_4 : ∀ i : grid0.Coords, EltTy.bits .f32 = 32 ∨ (Rect.block (s := S1x256) S1x256.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2000x256.size a ≤ S50000x256.size a
  hwx0_5 : ∀ i : grid0.Coords, EltTy.bits .f32 = 32 ∨ (Rect.block (s := S50000x256) S2000x256.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x256.size a ≤ S50000x256.size a
  hwx1_0 : ∀ i : grid1.Coords, EltTy.bits .f32 = 32 ∨ (Rect.block (s := S50000x256) S2000x256.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x256.size a ≤ S50000x256.size a
  hwx1_1 : ∀ i : grid1.Coords, EltTy.bits .f32 = 32 ∨ (Rect.block (s := S50000x256) S2000x256.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S256x128.size a ≤ S256x128.size a
  hwx1_2 : ∀ i : grid1.Coords, EltTy.bits .f32 = 32 ∨ (Rect.block (s := S256x128) S256x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S256x128.size a ≤ S256x128.size a
  hwx1_3 : ∀ i : grid1.Coords, EltTy.bits .f32 = 32 ∨ (Rect.block (s := S256x128) S256x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S2000x128.size a ≤ S50000x128.size a
  hwx1_5 : ∀ i : grid1.Coords, EltTy.bits .f32 = 32 ∨ (Rect.block (s := S50000x128) S2000x128.size (cc1_transform_5 i) (hinb1_5 i)).WholeWords (EltTy.packing .f32)

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S2000x128_S128x256_S2000x256_1_0_0_1_n_n : DotDims S2000x128 S128x256 S2000x256 where
  lhsContracting := [1]
  rhsContracting := [0]
  lhsNonContracting := [0]
  rhsNonContracting := [1]
  lhsBatch := []
  rhsBatch := []
  wf := dot_S2000x128_S128x256_S2000x256_1_0_0_1_n_n_wf
def gather_S50000x256_S800000x1_S800000x256_1_0_n_n_0_1_1256 : GatherDims S50000x256 S800000x1 S800000x256 where
  offsetDims := [1]
  collapsedSliceDims := [0]
  operandBatchingDims := []
  startIndicesBatchingDims := []
  startIndexMap := [0]
  indexVectorDim := 1
  sliceSizes := ![1, 256]
  wf := gather_S50000x256_S800000x1_S800000x256_1_0_n_n_0_1_1256_wf
def scatter_S50000x256_S800000x1_S800000x256_1_0_0_1 : ScatterDims S50000x256 S800000x1 S800000x256 where
  updateWindowDims := [1]
  insertedWindowDims := [0]
  scatterDimsToOperandDims := [0]
  indexVectorDim := 1
  wf := scatter_S50000x256_S800000x1_S800000x256_1_0_0_1_wf
def dot_S2000x256_S256x128_S2000x128_1_0_0_1_n_n : DotDims S2000x256 S256x128 S2000x128 where
  lhsContracting := [1]
  rhsContracting := [0]
  lhsNonContracting := [0]
  rhsNonContracting := [1]
  lhsBatch := []
  rhsBatch := []
  wf := dot_S2000x256_S256x128_S2000x128_1_0_0_1_n_n_wf

abbrev win0_0 : Pipeline.Window sig grid0 :=
  Pipeline.Window.ofSpec (Memref.whole main_v22) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S2000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v23) S128x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v24) S128x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v25) S1x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v26) S2000x256.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v45) S2000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v26) S2000x256.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v46) S256x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v47) S256x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v48) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v49) S2000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S256x128 : Shape := ⟨2, ![256, 128]⟩
abbrev S256 : Shape := ⟨1, ![256]⟩
abbrev S128x256 : Shape := ⟨2, ![128, 256]⟩
abbrev S128 : Shape := ⟨1, ![128]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x128 : Shape := ⟨2, ![800000, 128]⟩
abbrev S50000 : Shape := ⟨1, ![50000]⟩
abbrev S50000x1 : Shape := ⟨2, ![50000, 1]⟩
abbrev S50000x256 : Shape := ⟨2, ![50000, 256]⟩
abbrev S1x256 : Shape := ⟨2, ![1, 256]⟩
abbrev S800000x256 : Shape := ⟨2, ![800000, 256]⟩
abbrev S1x128 : Shape := ⟨2, ![1, 128]⟩

abbrev nBuf : Space → Nat
  | .hbm => 85
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S256x128, .f32⟩
  | .hbm, ⟨3, _⟩ => ⟨S256, .f32⟩
  | .hbm, ⟨4, _⟩ => ⟨S256x128, .f32⟩
  | .hbm, ⟨5, _⟩ => ⟨S128x256, .f32⟩
  | .hbm, ⟨6, _⟩ => ⟨S128, .f32⟩
  | .hbm, ⟨7, _⟩ => ⟨S128x256, .f32⟩
  | .hbm, ⟨8, _⟩ => ⟨S1x800000, .i32⟩
  | .hbm, ⟨9, _⟩ => ⟨S800000, .i32⟩
  | .hbm, ⟨10, _⟩ => ⟨S1x800000, .i32⟩
  | .hbm, ⟨11, _⟩ => ⟨S800000, .i32⟩
  | .hbm, ⟨12, _⟩ => ⟨S_, .i32⟩
  | .hbm, ⟨13, _⟩ => ⟨S800000, .i32⟩
  | .hbm, ⟨14, _⟩ => ⟨S800000, .i1⟩
  | .hbm, ⟨15, _⟩ => ⟨S_, .i32⟩
  | .hbm, ⟨16, _⟩ => ⟨S800000, .i32⟩
  | .hbm, ⟨17, _⟩ => ⟨S800000, .i32⟩
  | .hbm, ⟨18, _⟩ => ⟨S800000, .i32⟩
  | .hbm, ⟨19, _⟩ => ⟨S800000x1, .i32⟩
  | .hbm, ⟨20, _⟩ => ⟨S800000x128, .f32⟩
  | .hbm, ⟨21, _⟩ => ⟨S_, .f32⟩
  | .hbm, ⟨22, _⟩ => ⟨S50000x128, .f32⟩
  | .hbm, ⟨23, _⟩ => ⟨S800000x1, .i32⟩
  | .hbm, ⟨24, _⟩ => ⟨S50000x128, .f32⟩
  | .hbm, ⟨25, _⟩ => ⟨S_, .f32⟩
  | .hbm, ⟨26, _⟩ => ⟨S800000, .f32⟩
  | .hbm, ⟨27, _⟩ => ⟨S_, .f32⟩
  | .hbm, ⟨28, _⟩ => ⟨S50000, .f32⟩
  | .hbm, ⟨29, _⟩ => ⟨S800000x1, .i32⟩
  | .hbm, ⟨30, _⟩ => ⟨S50000, .f32⟩
  | .hbm, ⟨31, _⟩ => ⟨S_, .f32⟩
  | .hbm, ⟨32, _⟩ => ⟨S50000, .f32⟩
  | .hbm, ⟨33, _⟩ => ⟨S50000, .f32⟩
  | .hbm, ⟨34, _⟩ => ⟨S50000x1, .f32⟩
  | .hbm, ⟨35, _⟩ => ⟨S50000x128, .f32⟩
  | .hbm, ⟨36, _⟩ => ⟨S50000x128, .f32⟩
  | .hbm, ⟨37, _⟩ => ⟨S128x256, .f32⟩
  | .hbm, ⟨38, _⟩ => ⟨S50000x256, .f32⟩
  | .hbm, ⟨39, _⟩ => ⟨S1x256, .f32⟩
  | .hbm, ⟨40, _⟩ => ⟨S50000x256, .f32⟩
  | .hbm, ⟨41, _⟩ => ⟨S50000x256, .f32⟩
  | .hbm, ⟨42, _⟩ => ⟨S128x256, .f32⟩
  | .hbm, ⟨43, _⟩ => ⟨S50000x256, .f32⟩
  | .hbm, ⟨44, _⟩ => ⟨S50000x256, .f32⟩
  | .hbm, ⟨45, _⟩ => ⟨S_, .f32⟩
  | .hbm, ⟨46, _⟩ => ⟨S50000x256, .f32⟩
  | .hbm, ⟨47, _⟩ => ⟨S50000x256, .f32⟩
  | .hbm, ⟨48, _⟩ => ⟨S1x800000, .i32⟩
  | .hbm, ⟨49, _⟩ => ⟨S800000, .i32⟩
  | .hbm, ⟨50, _⟩ => ⟨S1x800000, .i32⟩
  | .hbm, ⟨51, _⟩ => ⟨S800000, .i32⟩
  | .hbm, ⟨52, _⟩ => ⟨S_, .i32⟩
  | .hbm, ⟨53, _⟩ => ⟨S800000, .i32⟩
  | .hbm, ⟨54, _⟩ => ⟨S800000, .i1⟩
  | .hbm, ⟨55, _⟩ => ⟨S_, .i32⟩
  | .hbm, ⟨56, _⟩ => ⟨S800000, .i32⟩
  | .hbm, ⟨57, _⟩ => ⟨S800000, .i32⟩
  | .hbm, ⟨58, _⟩ => ⟨S800000, .i32⟩
  | .hbm, ⟨59, _⟩ => ⟨S800000x1, .i32⟩
  | .hbm, ⟨60, _⟩ => ⟨S800000x256, .f32⟩
  | .hbm, ⟨61, _⟩ => ⟨S_, .f32⟩
  | .hbm, ⟨62, _⟩ => ⟨S50000x256, .f32⟩
  | .hbm, ⟨63, _⟩ => ⟨S800000x1, .i32⟩
  | .hbm, ⟨64, _⟩ => ⟨S50000x256, .f32⟩
  | .hbm, ⟨65, _⟩ => ⟨S_, .f32⟩
  | .hbm, ⟨66, _⟩ => ⟨S800000, .f32⟩
  | .hbm, ⟨67, _⟩ => ⟨S_, .f32⟩
  | .hbm, ⟨68, _⟩ => ⟨S50000, .f32⟩
  | .hbm, ⟨69, _⟩ => ⟨S800000x1, .i32⟩
  | .hbm, ⟨70, _⟩ => ⟨S50000, .f32⟩
  | .hbm, ⟨71, _⟩ => ⟨S_, .f32⟩
  | .hbm, ⟨72, _⟩ => ⟨S50000, .f32⟩
  | .hbm, ⟨73, _⟩ => ⟨S50000, .f32⟩
  | .hbm, ⟨74, _⟩ => ⟨S50000x1, .f32⟩
  | .hbm, ⟨75, _⟩ => ⟨S50000x256, .f32⟩
  | .hbm, ⟨76, _⟩ => ⟨S50000x256, .f32⟩
  | .hbm, ⟨77, _⟩ => ⟨S256x128, .f32⟩
  | .hbm, ⟨78, _⟩ => ⟨S50000x128, .f32⟩
  | .hbm, ⟨79, _⟩ => ⟨S1x128, .f32⟩
  | .hbm, ⟨80, _⟩ => ⟨S50000x128, .f32⟩
  | .hbm, ⟨81, _⟩ => ⟨S50000x128, .f32⟩
  | .hbm, ⟨82, _⟩ => ⟨S256x128, .f32⟩
  | .hbm, ⟨83, _⟩ => ⟨S50000x128, .f32⟩
  | .hbm, ⟨84, _⟩ => ⟨S50000x128, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_v4 : Ref sig .tc := ⟨.hbm, 13, rfl⟩
abbrev main_v5 : Ref sig .tc := ⟨.hbm, 14, rfl⟩
abbrev main_c_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_1 : Ref sig .tc := ⟨.hbm, 25, rfl⟩
abbrev main_v14 : Ref sig .tc := ⟨.hbm, 26, rfl⟩
abbrev main_cst_2 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_call0_cst : Ref sig .tc := ⟨.hbm, 45, rfl⟩
abbrev main_call0_v0 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_c_4 : Ref sig .tc := ⟨.hbm, 52, rfl⟩
abbrev main_v36 : Ref sig .tc := ⟨.hbm, 53, rfl⟩
abbrev main_v37 : Ref sig .tc := ⟨.hbm, 54, rfl⟩
abbrev main_c_5 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_cst_6 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_cst_7 : Ref sig .tc := ⟨.hbm, 65, rfl⟩
abbrev main_v46 : Ref sig .tc := ⟨.hbm, 66, rfl⟩
abbrev main_cst_8 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_cst_9 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  transposes_S256x128_S128x256_1_0 : S256x128.Transposes [1, 0] S128x256
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  bcast_S_S50000x256 : S_.BroadcastsInDim S50000x256 (![] : Fin 0 → Fin S50000x256.rank)
  bcast_S50000x1_S50000x256_0_1 : S50000x1.BroadcastsInDim S50000x256 (![0, 1] : Fin 2 → Fin S50000x256.rank)
  transposes_S128x256_S256x128_1_0 : S128x256.Transposes [1, 0] S256x128
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  scatter_S50000_S800000x1_S800000_n_0_0_1_wf : ScatterDims.WF S50000 S800000x1 S800000 [] [0] [0] 1
  dot_S50000x128_S128x256_S50000x256_1_0_0_1_n_n_wf : DotDims.WF S50000x128 S128x256 S50000x256 [1] [0] [0] [1] [] []
  gather_S50000x256_S800000x1_S800000x256_1_0_n_n_0_1_1256_wf : GatherDims.WF S50000x256 S800000x1 S800000x256 [1] [0] [] [0] [] 1 ![1, 256]
  scatter_S50000x256_S800000x1_S800000x256_1_0_0_1_wf : ScatterDims.WF S50000x256 S800000x1 S800000x256 [1] [0] [0] 1
  dot_S50000x256_S256x128_S50000x128_1_0_0_1_n_n_wf : DotDims.WF S50000x256 S256x128 S50000x128 [1] [0] [0] [1] [] []

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S50000x128_S128x256_S50000x256_1_0_0_1_n_n : DotDims S50000x128 S128x256 S50000x256 where
  lhsContracting := [1]
  rhsContracting := [0]
  lhsNonContracting := [0]
  rhsNonContracting := [1]
  lhsBatch := []
  rhsBatch := []
  wf := dot_S50000x128_S128x256_S50000x256_1_0_0_1_n_n_wf
def gather_S50000x256_S800000x1_S800000x256_1_0_n_n_0_1_1256 : GatherDims S50000x256 S800000x1 S800000x256 where
  offsetDims := [1]
  collapsedSliceDims := [0]
  operandBatchingDims := []
  startIndicesBatchingDims := []
  startIndexMap := [0]
  indexVectorDim := 1
  sliceSizes := ![1, 256]
  wf := gather_S50000x256_S800000x1_S800000x256_1_0_n_n_0_1_1256_wf
def scatter_S50000x256_S800000x1_S800000x256_1_0_0_1 : ScatterDims S50000x256 S800000x1 S800000x256 where
  updateWindowDims := [1]
  insertedWindowDims := [0]
  scatterDimsToOperandDims := [0]
  indexVectorDim := 1
  wf := scatter_S50000x256_S800000x1_S800000x256_1_0_0_1_wf
def dot_S50000x256_S256x128_S50000x128_1_0_0_1_n_n : DotDims S50000x256 S256x128 S50000x128 where
  lhsContracting := [1]
  rhsContracting := [0]
  lhsNonContracting := [0]
  rhsNonContracting := [1]
  lhsBatch := []
  rhsBatch := []
  wf := dot_S50000x256_S256x128_S50000x128_1_0_0_1_n_n_wf

class Facts : Prop extends Facts₀ where

variable [Facts]
-- ==== Proof.KernelRun.lean ====
/-
  The idealized kernel program's run, with its final memory named.

  The program is four segments: host operations, a grid of 25 row blocks (layer 1's projection), host operations
  again, a second grid of 25 row blocks (layer 2's projection). Every weakly fair execution from any memory
  terminates, and in the final state EVERY buffer the TensorCore keeps across segments holds the contents of the
  last segment boundary, `W4`: the fold of the two host stretches and of the two grids' write-backs over the launch
  memory. The frame claim reads only the eight argument buffers out of this; the value claim below reads the
  result buffer as well.
-/
import proofs.«109922_j32959579030042_1_alg».proof.Proof.Gen.KernelIdeal.Frame

set_option maxRecDepth 16384

noncomputable section

namespace Cert.KernelIdeal.ValueRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the library theorem's implicit arguments are found by unifying its conclusion with this one, through plain definitions
set_option backward.isDefEq.respectTransparency.types false in
/-- Every weakly fair execution terminates, nothing faulting, and the final memory holds, at every buffer the
    TensorCore keeps across segments, the contents of the last segment boundary. -/
theorem run_boundary : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      -- the launch's ghost state is the cells' initial element; no core is given anything else
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      -- at launch each core holds its buffers at the launch memory, its generator register, and owes nothing
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      -- the last thread state holds every kept buffer at `W4`: read them all against the final state
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun _ h => h)

end Cert.KernelIdeal.ValueRun

end
-- ==== Proof.Shared.lean ====
/-
  The pieces both programs compute by the same host operations, named once.

  Both programs slice the edge list into sources and destinations, wrap negative sources around, gather the
  source rows, add them up at the destinations, count the destinations, clamp the count at one and divide: the
  mean over incoming edges. Both transpose the four weight matrices and turn each bias into a row. None of this
  is ever opened: it is carried as functions, the same ones on both sides, and only the projection between them
  is compared. The reference's read-back stages are taken as the names.
-/
import proofs.«109922_j32959579030042_1_alg».proof.Proof.Gen.ReferenceIdeal.Read

noncomputable section

namespace Cert.Shared

open Idealize.ShloMosaic Cert.ReferenceIdeal Cert.ReferenceIdeal.Read

/-- Mean over incoming edges of the 128-wide input features `x`, for the edge list `e`. -/
abbrev meanInput (x : (⟨S50000x128, .f32⟩ : BufTy).Contents (Elt Ideal)) (e : (⟨S2x800000, .i32⟩ : BufTy).Contents (Elt Ideal)) :
    (⟨S50000x128, .f32⟩ : BufTy).Contents (Elt Ideal) := val_main_v22 (F := Ideal) x e

/-- The edge list's sources (row 0) and destinations (row 1), as vectors. -/
abbrev sources (e : (⟨S2x800000, .i32⟩ : BufTy).Contents (Elt Ideal)) : (⟨S800000, .i32⟩ : BufTy).Contents (Elt Ideal) := val_main_v33 (F := Ideal) e
abbrev dests (e : (⟨S2x800000, .i32⟩ : BufTy).Contents (Elt Ideal)) : (⟨S800000, .i32⟩ : BufTy).Contents (Elt Ideal) := val_main_v35 (F := Ideal) e

/-- Mean over incoming edges of 256-wide features `h`, for the edge list `e`: gather the source rows, add them
    at the destinations, divide by the clamped in-degree. -/
def meanHidden (h : (⟨S50000x256, .f32⟩ : BufTy).Contents (Elt Ideal)) (e : (⟨S2x800000, .i32⟩ : BufTy).Contents (Elt Ideal)) :
    (⟨S50000x256, .f32⟩ : BufTy).Contents (Elt Ideal) :=
  Host.divf (F := Ideal) (φ := .f32) (Host.scatterAdd (F := Ideal) (φ := .f32) scatter_S50000x256_S800000x1_S800000x256_1_0_0_1 (val_main_v43 (F := Ideal)) (val_main_v44 (F := Ideal) e)
      (Host.gather (α := Ideal .f32) gather_S50000x256_S800000x1_S800000x256_1_0_n_n_0_1_1256 h (val_main_v41 (F := Ideal) e)))
    (val_main_v53 (F := Ideal) e)

/-- The reference's second aggregate is `meanHidden` of its hidden layer. -/
theorem ref_meanHidden (x0 : (⟨S50000x128, .f32⟩ : BufTy).Contents (Elt Ideal)) (x1 : (⟨S2x800000, .i32⟩ : BufTy).Contents (Elt Ideal))
    (x2 : (⟨S256x128, .f32⟩ : BufTy).Contents (Elt Ideal)) (x3 : (⟨S256, .f32⟩ : BufTy).Contents (Elt Ideal)) (x4 : (⟨S256x128, .f32⟩ : BufTy).Contents (Elt Ideal)) :
    val_main_v54 (F := Ideal) x0 x1 x2 x3 x4 = meanHidden (val_main_v31 (F := Ideal) x0 x1 x2 x3 x4) x1 := rfl

/-- A [256,128] weight matrix transposed to [128,256] (layer 1), and a [128,256] one to [256,128] (layer 2). -/
abbrev tr1 (w : (⟨S256x128, .f32⟩ : BufTy).Contents (Elt Ideal)) : (⟨S128x256, .f32⟩ : BufTy).Contents (Elt Ideal) := val_main_v23 (F := Ideal) w
abbrev tr2 (w : (⟨S128x256, .f32⟩ : BufTy).Contents (Elt Ideal)) : (⟨S256x128, .f32⟩ : BufTy).Contents (Elt Ideal) := val_main_v55 (F := Ideal) w

theorem tr1_right (w : (⟨S256x128, .f32⟩ : BufTy).Contents (Elt Ideal)) : val_main_v28 (F := Ideal) w = tr1 w := rfl
theorem tr2_right (w : (⟨S128x256, .f32⟩ : BufTy).Contents (Elt Ideal)) : val_main_v60 (F := Ideal) w = tr2 w := rfl

/-- A bias as a one-row matrix. -/
abbrev row1 (b : (⟨S256, .f32⟩ : BufTy).Contents (Elt Ideal)) : (⟨S1x256, .f32⟩ : BufTy).Contents (Elt Ideal) := val_main_v25 (F := Ideal) b
abbrev row2 (b : (⟨S128, .f32⟩ : BufTy).Contents (Elt Ideal)) : (⟨S1x128, .f32⟩ : BufTy).Contents (Elt Ideal) := val_main_v57 (F := Ideal) b

end Cert.Shared

end
-- ==== Proof.KernelHost.lean ====
/-
  What the kernel program's two host stretches leave in the buffers its two grids read.

  The first stretch turns the edge list and the input features into the input mean aggregate, transposes layer 1's
  two weight matrices and reshapes its bias to a row; the second does the same for layer 2 from the hidden
  features the first grid wrote. Each fact is stated from ANY buffer contents `W`, so the stretch is read once
  and never opened again; the mean aggregate stays the one function both programs share.
-/
import proofs.«109922_j32959579030042_1_alg».proof.Proof.Gen.KernelIdeal.Frame
import proofs.«109922_j32959579030042_1_alg».proof.Proof.Shared
import Idealize.ShloMosaic.Lib.StableHlo.Run
import Idealize.ShloMosaic.Lib.ValueLayout
import Idealize.ShloMosaic.Lib.ValueIdx

set_option maxRecDepth 16384

noncomputable section

namespace Cert.KernelIdeal.HostSide

open Idealize.ShloMosaic Idealize.ShloMosaic.TcCoe Idealize.SL.Sem Idealize.ShloMosaic.StableHlo Idealize.ShloMosaic.ValueIdx
open Cert.KernelIdeal Cert.KernelIdeal.Gen
open Cert.Shared (meanInput meanHidden sources dests tr1 tr2 row1 row2)

/-! ## A vector reshaped to one row is the vector broadcast to one row -/

theorem reshape_row1 (b : S256.Idx → EReal) (h : S256.ShapeCasts S1x256) : shapeCast S1x256 b h = row1 b := by
  funext i
  obtain ⟨u, q, rfl⟩ : ∃ (u : Fin 1) (q : Fin 256), i = ix2 u q := ⟨i 0, i 1, eq_ix2 i⟩
  refine (shapeCast_a_1a_apply b h u q).trans ?_
  exact ((Cert.ReferenceIdeal.Read.val_main_v25_apply (F := Ideal) b (ix2 u q)).trans
    (congrArg b (funext fun a => by match a with | ⟨0, _⟩ => rfl))).symm

theorem reshape_row2 (b : S128.Idx → EReal) (h : S128.ShapeCasts S1x128) : shapeCast S1x128 b h = row2 b := by
  funext i
  obtain ⟨u, q, rfl⟩ : ∃ (u : Fin 1) (q : Fin 128), i = ix2 u q := ⟨i 0, i 1, eq_ix2 i⟩
  refine (shapeCast_a_1a_apply b h u q).trans ?_
  exact ((Cert.ReferenceIdeal.Read.val_main_v57_apply (F := Ideal) b (ix2 u q)).trans
    (congrArg b (funext fun a => by match a with | ⟨0, _⟩ => rfl))).symm

variable (W : Valuation τ sig (Elt Ideal))

/-! ## The first stretch -/

set_option maxHeartbeats 2000000 in
/-- The input mean aggregate. -/
theorem first_mean : (StableHlo.after hostOps0 W (Proc.devRef .tc main_v22) : S50000x128.Idx → EReal)
    = meanInput (W (Proc.devRef .tc main_arg0)) (W (Proc.devRef .tc main_arg1)) := by
  after_results
  rfl

/-- The input features are not written. -/
theorem first_x : (StableHlo.after hostOps0 W (Proc.devRef .tc main_arg0) : S50000x128.Idx → EReal) = W (Proc.devRef .tc main_arg0) := by
  after_results

/-- Layer 1's two weight matrices, transposed. -/
theorem first_wl : (StableHlo.after hostOps0 W (Proc.devRef .tc main_v23) : S128x256.Idx → EReal) = tr1 (W (Proc.devRef .tc main_arg2)) := by
  after_results
  rfl
theorem first_wr : (StableHlo.after hostOps0 W (Proc.devRef .tc main_v24) : S128x256.Idx → EReal) = tr1 (W (Proc.devRef .tc main_arg4)) := by
  after_results
  rfl

/-- Layer 1's bias as a row. -/
theorem first_b : (StableHlo.after hostOps0 W (Proc.devRef .tc main_v25) : S1x256.Idx → EReal) = row1 (W (Proc.devRef .tc main_arg3)) := by
  after_results
  exact reshape_row1 (W (Proc.devRef .tc main_arg3)) _

/-- The edge list's sources and destinations, which the second stretch reads again. -/
theorem first_src : (StableHlo.after hostOps0 W (Proc.devRef .tc main_v1) : (⟨S800000, .i32⟩ : BufTy).Contents (Elt Ideal))
    = sources (W (Proc.devRef .tc main_arg1)) := by
  after_results
  rfl
theorem first_dst : (StableHlo.after hostOps0 W (Proc.devRef .tc main_v3) : (⟨S800000, .i32⟩ : BufTy).Contents (Elt Ideal))
    = dests (W (Proc.devRef .tc main_arg1)) := by
  after_results
  rfl

/-- Layer 2's weights and bias are not written by the first stretch. -/
theorem first_w5 : (StableHlo.after hostOps0 W (Proc.devRef .tc main_arg5) : S128x256.Idx → EReal) = W (Proc.devRef .tc main_arg5) := by
  after_results
theorem first_w7 : (StableHlo.after hostOps0 W (Proc.devRef .tc main_arg7) : S128x256.Idx → EReal) = W (Proc.devRef .tc main_arg7) := by
  after_results
theorem first_b6 : (StableHlo.after hostOps0 W (Proc.devRef .tc main_arg6) : S128.Idx → EReal) = W (Proc.devRef .tc main_arg6) := by
  after_results

/-! ## The second stretch -/

set_option maxHeartbeats 2000000 in
/-- The hidden mean aggregate, when the sources and destinations it reads are the edge list `e`'s. -/
theorem second_mean (e : (⟨S2x800000, .i32⟩ : BufTy).Contents (Elt Ideal))
    (hs : (W (Proc.devRef .tc main_v1) : (⟨S800000, .i32⟩ : BufTy).Contents (Elt Ideal)) = sources e)
    (hd : (W (Proc.devRef .tc main_v3) : (⟨S800000, .i32⟩ : BufTy).Contents (Elt Ideal)) = dests e) :
    (StableHlo.after hostOps1 W (Proc.devRef .tc main_v45) : S50000x256.Idx → EReal)
      = meanHidden (W (Proc.devRef .tc main_v26)) e := by
  after_results
  rw [hs, hd]
  rfl

/-- The hidden features are not written. -/
theorem second_h : (StableHlo.after hostOps1 W (Proc.devRef .tc main_v26) : S50000x256.Idx → EReal) = W (Proc.devRef .tc main_v26) := by
  after_results

/-- Layer 2's two weight matrices, transposed, and its bias as a row. -/
theorem second_wl : (StableHlo.after hostOps1 W (Proc.devRef .tc main_v46) : S256x128.Idx → EReal) = tr2 (W (Proc.devRef .tc main_arg5)) := by
  after_results
  rfl
theorem second_wr : (StableHlo.after hostOps1 W (Proc.devRef .tc main_v47) : S256x128.Idx → EReal) = tr2 (W (Proc.devRef .tc main_arg7)) := by
  after_results
  rfl
theorem second_b : (StableHlo.after hostOps1 W (Proc.devRef .tc main_v48) : S1x128.Idx → EReal) = row2 (W (Proc.devRef .tc main_arg6)) := by
  after_results
  exact reshape_row2 (W (Proc.devRef .tc main_arg6)) _

end Cert.KernelIdeal.HostSide

end
-- ==== Proof.Payload.lean ====
/-
  What one grid point of each projection kernel stores, entry by entry, over the extended reals.

  A point holds a block of 2000 rows of the aggregated features `a` and of the node features `x`, the two weight
  matrices `wl`, `wr` already transposed to [in, out], and the bias as one row `b`. Rounding to bf16 on the way
  into the matrix unit is the identity at the ideal instance and the matrix unit's sum starts from zero, so entry
  (p, q) of the stored block is

      (∑ₖ a[p,k]·wl[k,q] + ∑ₖ x[p,k]·wr[k,q]) + b[0,q]

  — followed, in the first layer only, by the maximum with zero.
-/
import proofs.«109922_j32959579030042_1_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Payload

open Idealize.ShloMosaic Idealize.ShloMosaic.ValueIdx Cert.KernelIdeal Cert.KernelIdeal.Gen
open Facts₀

/-- Layer 1's contraction: [2000, 128] × [128, 256]. -/
abbrev D0 : DotDims S2000x128 S128x256 S2000x256 := dot_S2000x128_S128x256_S2000x256_1_0_0_1_n_n
/-- Layer 2's contraction: [2000, 256] × [256, 128]. -/
abbrev D1 : DotDims S2000x256 S256x128 S2000x128 := dot_S2000x256_S256x128_S2000x128_1_0_0_1_n_n

/-! ## A matrix product into the zero accumulator, at an entry -/

theorem D0_lhs_row (i : S2000x256.Idx) (κ : D0.contr.Idx) : (D0.lhsIdx i κ 0).val = (i 0).val := by
  unfold DotDims.lhsIdx
  rw [dif_neg (show ¬(0 : Fin S2000x128.rank) ∈ D0.lhsBatch by decide), dif_pos (show (0 : Fin S2000x128.rank) ∈ D0.lhsNonContracting by decide)]
  rfl
theorem D0_rhs_col (i : S2000x256.Idx) (κ : D0.contr.Idx) : (D0.rhsIdx i κ 1).val = (i 1).val := by
  unfold DotDims.rhsIdx
  rw [dif_neg (show ¬(1 : Fin S128x256.rank) ∈ D0.rhsBatch by decide), dif_pos (show (1 : Fin S128x256.rank) ∈ D0.rhsNonContracting by decide)]
  rfl
theorem D1_lhs_row (i : S2000x128.Idx) (κ : D1.contr.Idx) : (D1.lhsIdx i κ 0).val = (i 0).val := by
  unfold DotDims.lhsIdx
  rw [dif_neg (show ¬(0 : Fin S2000x256.rank) ∈ D1.lhsBatch by decide), dif_pos (show (0 : Fin S2000x256.rank) ∈ D1.lhsNonContracting by decide)]
  rfl
theorem D1_rhs_col (i : S2000x128.Idx) (κ : D1.contr.Idx) : (D1.rhsIdx i κ 1).val = (i 1).val := by
  unfold DotDims.rhsIdx
  rw [dif_neg (show ¬(1 : Fin S256x128.rank) ∈ D1.rhsBatch by decide), dif_pos (show (1 : Fin S256x128.rank) ∈ D1.rhsNonContracting by decide)]
  rfl

/-- Entry (p, q) of a [2000,128]·[128,256] product accumulated from zero is the sum over the shared axis. -/
theorem matmul0_apply {φ₁ φ₂ : FTy} (l : FVec Ideal S2000x128 φ₁) (r : FVec Ideal S128x256 φ₂) (p : Fin 2000) (q : Fin 256) :
    matmul D0 none l r (constant S2000x256 .f32 0x00000000#32) (ix2 p q) = ∑ k : Fin 128, l (ix2 p k) * r (ix2 k q) := by
  refine (Ideal.matmul_constant_zero_apply D0 none l r (ix2 p q)).trans ?_
  rw [← Equiv.sum_comp (contrEquiv1 D0 128 rfl rfl).symm]
  refine Finset.sum_congr rfl fun k _ => ?_
  have hk := contrEquiv1_symm_val D0 128 rfl rfl k
  have el : D0.lhsIdx (ix2 p q) ((contrEquiv1 D0 128 rfl rfl).symm k) = ix2 p k := funext fun a => Fin.ext (by
    match a with
    | ⟨0, _⟩ => exact D0_lhs_row _ _
    | ⟨1, _⟩ => exact (D0.lhsIdx_val_of_single rfl _ _).trans hk)
  have er : D0.rhsIdx (ix2 p q) ((contrEquiv1 D0 128 rfl rfl).symm k) = ix2 k q := funext fun a => Fin.ext (by
    match a with
    | ⟨0, _⟩ => exact (D0.rhsIdx_val_of_single rfl _ _).trans hk
    | ⟨1, _⟩ => exact D0_rhs_col _ _)
  rw [el, er]

/-- Entry (p, q) of a [2000,256]·[256,128] product accumulated from zero is the sum over the shared axis. -/
theorem matmul1_apply {φ₁ φ₂ : FTy} (l : FVec Ideal S2000x256 φ₁) (r : FVec Ideal S256x128 φ₂) (p : Fin 2000) (q : Fin 128) :
    matmul D1 none l r (constant S2000x128 .f32 0x00000000#32) (ix2 p q) = ∑ k : Fin 256, l (ix2 p k) * r (ix2 k q) := by
  refine (Ideal.matmul_constant_zero_apply D1 none l r (ix2 p q)).trans ?_
  rw [← Equiv.sum_comp (contrEquiv1 D1 256 rfl rfl).symm]
  refine Finset.sum_congr rfl fun k _ => ?_
  have hk := contrEquiv1_symm_val D1 256 rfl rfl k
  have el : D1.lhsIdx (ix2 p q) ((contrEquiv1 D1 256 rfl rfl).symm k) = ix2 p k := funext fun a => Fin.ext (by
    match a with
    | ⟨0, _⟩ => exact D1_lhs_row _ _
    | ⟨1, _⟩ => exact (D1.lhsIdx_val_of_single rfl _ _).trans hk)
  have er : D1.rhsIdx (ix2 p q) ((contrEquiv1 D1 256 rfl rfl).symm k) = ix2 k q := funext fun a => Fin.ext (by
    match a with
    | ⟨0, _⟩ => exact (D1.rhsIdx_val_of_single rfl _ _).trans hk
    | ⟨1, _⟩ => exact D1_rhs_col _ _)
  rw [el, er]

/-! ## The two stored blocks -/

/-- Layer 1, entry (p, q): the two row-by-column sums, the bias row's entry, and the maximum with zero. -/
def hidden (a x : Vec Ideal S2000x128 .f32) (wl wr : Vec Ideal S128x256 .f32) (b : Vec Ideal S1x256 .f32)
    (p : Fin 2000) (q : Fin 256) : EReal :=
  max (((∑ k : Fin 128, a (ix2 p k) * wl (ix2 k q)) + ∑ k : Fin 128, x (ix2 p k) * wr (ix2 k q)) + b (ix2 (0 : Fin 1) q))
    (Ideal.ofBits .f32 0x00000000#32)

/-- Layer 2, entry (p, q): the two row-by-column sums and the bias row's entry. -/
def output (a x : Vec Ideal S2000x256 .f32) (wl wr : Vec Ideal S256x128 .f32) (b : Vec Ideal S1x128 .f32)
    (p : Fin 2000) (q : Fin 128) : EReal :=
  ((∑ k : Fin 256, a (ix2 p k) * wl (ix2 k q)) + ∑ k : Fin 256, x (ix2 p k) * wr (ix2 k q)) + b (ix2 (0 : Fin 1) q)

/-- What a point of the first grid stores is `hidden` of its loaded blocks. -/
theorem pay0_apply (a x : Vec Ideal S2000x128 .f32) (wl wr : Vec Ideal S128x256 .f32) (b : Vec Ideal S1x256 .f32)
    (p : Fin 2000) (q : Fin 256) : k0_pay1 a x wl wr b (ix2 p q) = hidden a x wl wr b p q := by
  unfold k0_pay1 hidden
  refine congrArg₂ max (congrArg₂ (· + ·) (congrArg₂ (· + ·) ?_ ?_) ?_) rfl
  · refine (matmul0_apply _ _ p q).trans (Finset.sum_congr rfl fun k _ => ?_)
    exact congrArg₂ (· * ·) (congrFun (shapeCast_self a _) _) (congrFun (shapeCast_self wl _) _)
  · refine (matmul0_apply _ _ p q).trans (Finset.sum_congr rfl fun k _ => ?_)
    exact congrArg₂ (· * ·) rfl (congrFun (shapeCast_self wr _) _)
  · exact (broadcastTo_1b_ab_apply _ _ p q).trans (congrFun (shapeCast_self b _) _)

/-- What a point of the second grid stores is `output` of its loaded blocks. -/
theorem pay1_apply (a x : Vec Ideal S2000x256 .f32) (wl wr : Vec Ideal S256x128 .f32) (b : Vec Ideal S1x128 .f32)
    (p : Fin 2000) (q : Fin 128) : k1_pay1 a x wl wr b (ix2 p q) = output a x wl wr b p q := by
  unfold k1_pay1 output
  refine congrArg₂ (· + ·) (congrArg₂ (· + ·) ?_ ?_) ?_
  · refine (matmul1_apply _ _ p q).trans (Finset.sum_congr rfl fun k _ => ?_)
    exact congrArg₂ (· * ·) (congrFun (shapeCast_self a _) _) (congrFun (shapeCast_self wl _) _)
  · refine (matmul1_apply _ _ p q).trans (Finset.sum_congr rfl fun k _ => ?_)
    exact congrArg₂ (· * ·) (congrFun (shapeCast_self x _) _) (congrFun (shapeCast_self wr _) _)
  · exact (broadcastTo_1b_ab_apply _ _ p q).trans (congrFun (shapeCast_self b _) _)

end Cert.KernelIdeal.Payload

end
-- ==== Proof.Layer1.lean ====
/-
  The first grid (layer 1's projection, with the ReLU): its result array as one function of the arrays it is entered with.

  The grid has 25 points; point t holds rows 2000·t … 2000·t + 1999 of the aggregated features and of the node
  features, all of both weight matrices and the one bias row, and writes back rows 2000·t … 2000·t + 1999 of the
  result. The 25 row blocks tile the 50000 rows, so after the grid the result array is, entry by entry,

      out[r, q] = max((∑ₖ agg[r,k]·wl[k,q] + ∑ₖ x[r,k]·wr[k,q]) + b[0,q], 0)

  of the arrays the grid was entered with — whatever those are: they are a parameter here.
-/
import proofs.«109922_j32959579030042_1_alg».proof.Proof.Gen.KernelIdeal.Frame
import proofs.«109922_j32959579030042_1_alg».proof.Proof.Payload
import Idealize.ShloMosaic.Lib.Pipeline.Value
import Idealize.ShloMosaic.Lib.ValueIdx

set_option maxRecDepth 16384

noncomputable section

namespace Cert.KernelIdeal.Layer1

open Idealize.ShloMosaic Idealize.ShloMosaic.TcCoe Idealize.SL.Sem Idealize.ShloMosaic.ValueIdx
open Idealize.ShloMosaic.Pipeline (Dat)
open Cert.KernelIdeal Cert.KernelIdeal.Gen Cert.KernelIdeal.Payload

-- the buffer contents the grid is entered with: a parameter
variable (V : (c : Dev nD) → (b : Ref sig .tc) → Buf (Elt Ideal) ((c : Thread nD τ).loc b))

theorem hz : (![0, 0] : Fin 2 → Nat) = fun _ => 0 := funext fun a => by fin_cases a <;> rfl

/-! ## The result as one function of whole arrays -/

/-- Row `r`, column `q` of the layer's result, from the whole arrays. -/
def entry (agg x : S50000x128.Idx → EReal) (wl wr : S128x256.Idx → EReal) (b : S1x256.Idx → EReal) (r : Fin 50000) (q : Fin 256) : EReal :=
  max (((∑ k : Fin 128, agg (ix2 r k) * wl (ix2 k q)) + ∑ k : Fin 128, x (ix2 r k) * wr (ix2 k q)) + b (ix2 (0 : Fin 1) q)) (Ideal.ofBits .f32 0x00000000#32)

/-- The layer's result array. -/
def result (agg x : S50000x128.Idx → EReal) (wl wr : S128x256.Idx → EReal) (b : S1x256.Idx → EReal) : S50000x256.Idx → EReal :=
  fun i => entry agg x wl wr b ⟨(i 0).val, (i 0).isLt⟩ ⟨(i 1).val, (i 1).isLt⟩

/-! ## Where each window's block sits -/

/-- Decided over the 25 points: the row-blocked windows (aggregate, features, result) sit at block row `t`, the
    weights and the bias at block (0, 0). -/
theorem block_at : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- Row `p` of point `t`'s block of the aggregate is row `2000·t + p` of the array. -/
theorem agg_block (c : Dev nD) (t : Fin cfg0.N) (p : Fin 2000) (k : Fin 128) (r : Fin 50000) (hr : r.val = t.val * 2000 + p.val) :
    (iblk0 V c 0 t : Vec Ideal S2000x128 .f32) (ix2 p k) = (V c main_v22 : S50000x128.Idx → EReal) (ix2 r k) := by
  obtain ⟨e0, e1, -⟩ := block_at t
  unfold iblk0
  rw [View.read_apply]
  show V c main_v22 _ = V c main_v22 _
  refine congrArg (V c main_v22) (funext fun a => Fin.ext ?_)
  match a with
  | ⟨0, _⟩ => show win0_0.index t 0 * 2000 + 1 * p.val = r.val; rw [e0, hr]; omega
  | ⟨1, _⟩ => show win0_0.index t 1 * 128 + 1 * k.val = k.val; rw [e1]; omega

/-- Row `p` of point `t`'s block of the node features is row `2000·t + p` of the array. -/
theorem x_block (c : Dev nD) (t : Fin cfg0.N) (p : Fin 2000) (k : Fin 128) (r : Fin 50000) (hr : r.val = t.val * 2000 + p.val) :
    (iblk0 V c 1 t : Vec Ideal S2000x128 .f32) (ix2 p k) = (V c main_arg0 : S50000x128.Idx → EReal) (ix2 r k) := by
  obtain ⟨-, -, e0, e1, -⟩ := block_at t
  unfold iblk0
  rw [View.read_apply]
  show V c main_arg0 _ = V c main_arg0 _
  refine congrArg (V c main_arg0) (funext fun a => Fin.ext ?_)
  match a with
  | ⟨0, _⟩ => show win0_1.index t 0 * 2000 + 1 * p.val = r.val; rw [e0, hr]; omega
  | ⟨1, _⟩ => show win0_1.index t 1 * 128 + 1 * k.val = k.val; rw [e1]; omega

/-- Every point's block of the left weights is the whole matrix. -/
theorem wl_block (c : Dev nD) (t : Fin cfg0.N) (k : Fin 128) (q q' : Fin 256) (hq : q'.val = q.val) :
    (iblk0 V c 2 t : Vec Ideal S128x256 .f32) (ix2 k q) = (V c main_v23 : S128x256.Idx → EReal) (ix2 k q') := by
  obtain ⟨-, -, -, -, e0, e1, -⟩ := block_at t
  unfold iblk0
  rw [View.read_apply]
  show V c main_v23 _ = V c main_v23 _
  refine congrArg (V c main_v23) (funext fun a => Fin.ext ?_)
  match a with
  | ⟨0, _⟩ => show win0_2.index t 0 * 128 + 1 * k.val = k.val; rw [e0]; omega
  | ⟨1, _⟩ => show win0_2.index t 1 * 256 + 1 * q.val = q'.val; rw [e1, hq]; omega

/-- Every point's block of the right weights is the whole matrix. -/
theorem wr_block (c : Dev nD) (t : Fin cfg0.N) (k : Fin 128) (q q' : Fin 256) (hq : q'.val = q.val) :
    (iblk0 V c 3 t : Vec Ideal S128x256 .f32) (ix2 k q) = (V c main_v24 : S128x256.Idx → EReal) (ix2 k q') := by
  obtain ⟨-, -, -, -, -, -, e0, e1, -⟩ := block_at t
  unfold iblk0
  rw [View.read_apply]
  show V c main_v24 _ = V c main_v24 _
  refine congrArg (V c main_v24) (funext fun a => Fin.ext ?_)
  match a with
  | ⟨0, _⟩ => show win0_3.index t 0 * 128 + 1 * k.val = k.val; rw [e0]; omega
  | ⟨1, _⟩ => show win0_3.index t 1 * 256 + 1 * q.val = q'.val; rw [e1, hq]; omega

/-- Every point's block of the bias is its one row. -/
theorem b_block (c : Dev nD) (t : Fin cfg0.N) (q q' : Fin 256) (hq : q'.val = q.val) :
    (iblk0 V c 4 t : Vec Ideal S1x256 .f32) (ix2 (0 : Fin 1) q) = (V c main_v25 : S1x256.Idx → EReal) (ix2 (0 : Fin 1) q') := by
  obtain ⟨-, -, -, -, -, -, -, -, e0, e1, -⟩ := block_at t
  unfold iblk0
  rw [View.read_apply]
  show V c main_v25 _ = V c main_v25 _
  refine congrArg (V c main_v25) (funext fun a => Fin.ext ?_)
  match a with
  | ⟨0, _⟩ => show win0_4.index t 0 * 1 + 1 * 0 = 0; rw [e0]
  | ⟨1, _⟩ => show win0_4.index t 1 * 256 + 1 * q.val = q'.val; rw [e1, hq]; omega

/-! ## What a point writes back, and the whole array -/

/-- Point `t` writes back rows 2000·t … 2000·t + 1999 of `result` of the entry arrays. -/
theorem flushed_eq (c : Dev nD) (t : Fin cfg0.N) :
    (dat0 V c).flushed 5 t = ((cfg0.win 5).blk t).view.read (Elt Ideal)
      (result (V c main_v22) (V c main_arg0) (V c main_v23) (V c main_v24) (V c main_v25)) := by
  show (cfg0.win 5).cut (grid0.coords t) ((dat0 V c).after 5 t) = _
  rw [after0_5]
  unfold out0_5
  rw [View.canon_unit_zero hz]
  simp only [View.ld_unit_zero (S := S2000x128) hz, View.ld_unit_zero (S := S128x256) hz, View.ld_unit_zero (S := S1x256) hz]
  funext j
  obtain ⟨p, q, rfl⟩ : ∃ (p : Fin 2000) (q : Fin 256), j = ix2 p q := ⟨j 0, j 1, eq_ix2 j⟩
  obtain ⟨-, -, -, -, -, -, -, -, -, -, e0, e1⟩ := block_at t
  show k0_pay1 (iblk0 V c 0 t) (iblk0 V c 1 t) (iblk0 V c 2 t) (iblk0 V c 3 t) (iblk0 V c 4 t) (ix2 p q)
      = result (V c main_v22) (V c main_arg0) (V c main_v23) (V c main_v24) (V c main_v25) (((cfg0.win 5).blk t).view.emb (ix2 p q))
  refine (pay0_apply _ _ _ _ _ p q).trans ?_
  have hrow : ((((cfg0.win 5).blk t).view.emb (ix2 p q)) 0).val = t.val * 2000 + p.val := by
    show win0_5.index t 0 * 2000 + 1 * p.val = _; rw [e0]; omega
  have hcol : ((((cfg0.win 5).blk t).view.emb (ix2 p q)) 1).val = q.val := by
    show win0_5.index t 1 * 256 + 1 * q.val = _; rw [e1]; omega
  unfold Payload.hidden result entry
  refine congrArg₂ max (congrArg₂ (· + ·) (congrArg₂ (· + ·) (Finset.sum_congr rfl fun k _ => ?_) (Finset.sum_congr rfl fun k _ => ?_)) ?_) rfl
  · exact congrArg₂ (· * ·) (agg_block V c t p k _ hrow) (wl_block V c t k q _ hcol)
  · exact congrArg₂ (· * ·) (x_block V c t p k _ hrow) (wr_block V c t k q _ hcol)
  · exact b_block V c t q _ hcol

/-- An index of the result array is in point `t`'s block iff each coordinate is in the block's range. -/
theorem mem_blk (t : Fin cfg0.N) (i : S50000x256.Idx) :
    i ∈ ((cfg0.win 5).blk t).view.set ↔ ∀ a : Fin 2, win0_5.index t a * S2000x256.size a ≤ (i a).val ∧ (i a).val < win0_5.index t a * S2000x256.size a + S2000x256.size a := by
  show i ∈ ((View.whole main_v26).slice (win0_5.rect t)).set ↔ _
  rw [View.set_slice_whole, Rect.mem_set_unit]
  exact Iff.rfl

/-- After the grid the result array is `result` of the entry arrays: row `r` is covered by point `r / 2000`. -/
theorem final (c : Dev nD) : (dat0 V c).arrAt 5 cfg0.N
    = result (V c main_v22) (V c main_arg0) (V c main_v23) (V c main_v24) (V c main_v25) :=
  (dat0 V c).arrAt_eq_of_cover 5 _ (fun t _ => flushed_eq V c t) fun i => by
    have hi0 : (i 0).val < 50000 := (i 0).isLt
    have hi1 : (i 1).val < 256 := (i 1).isLt
    have hN : cfg0.N = 25 := N_0
    have ht : (i 0).val / 2000 < cfg0.N := by rw [hN]; omega
    obtain ⟨-, -, -, -, -, -, -, -, -, -, e0, e1⟩ := block_at ⟨(i 0).val / 2000, ht⟩
    refine ⟨⟨(i 0).val / 2000, ht⟩, flush0_5 _, ?_⟩
    rw [mem_blk]
    intro a
    match a with
    | ⟨0, _⟩ =>
      show win0_5.index ⟨(i 0).val / 2000, ht⟩ 0 * 2000 ≤ (i 0).val ∧ (i 0).val < win0_5.index ⟨(i 0).val / 2000, ht⟩ 0 * 2000 + 2000
      rw [e0]; show (i 0).val / 2000 * 2000 ≤ (i 0).val ∧ (i 0).val < (i 0).val / 2000 * 2000 + 2000; omega
    | ⟨1, _⟩ =>
      show win0_5.index ⟨(i 0).val / 2000, ht⟩ 1 * 256 ≤ (i 1).val ∧ (i 1).val < win0_5.index ⟨(i 0).val / 2000, ht⟩ 1 * 256 + 256
      rw [e1]; omega

end Cert.KernelIdeal.Layer1

end
-- ==== Proof.Layer2.lean ====
/-
  The second grid (layer 2's projection, no ReLU): its result array as one function of the arrays it is entered with.

  The grid has 25 points; point t holds rows 2000·t … 2000·t + 1999 of the aggregated features and of the node
  features, all of both weight matrices and the one bias row, and writes back rows 2000·t … 2000·t + 1999 of the
  result. The 25 row blocks tile the 50000 rows, so after the grid the result array is, entry by entry,

      out[r, q] = (∑ₖ agg[r,k]·wl[k,q] + ∑ₖ x[r,k]·wr[k,q]) + b[0,q]

  of the arrays the grid was entered with — whatever those are: they are a parameter here.
-/
import proofs.«109922_j32959579030042_1_alg».proof.Proof.Gen.KernelIdeal.Frame
import proofs.«109922_j32959579030042_1_alg».proof.Proof.Payload
import Idealize.ShloMosaic.Lib.Pipeline.Value
import Idealize.ShloMosaic.Lib.ValueIdx

set_option maxRecDepth 16384

noncomputable section

namespace Cert.KernelIdeal.Layer2

open Idealize.ShloMosaic Idealize.ShloMosaic.TcCoe Idealize.SL.Sem Idealize.ShloMosaic.ValueIdx
open Idealize.ShloMosaic.Pipeline (Dat)
open Cert.KernelIdeal Cert.KernelIdeal.Gen Cert.KernelIdeal.Payload

-- the buffer contents the grid is entered with: a parameter
variable (V : (c : Dev nD) → (b : Ref sig .tc) → Buf (Elt Ideal) ((c : Thread nD τ).loc b))

theorem hz : (![0, 0] : Fin 2 → Nat) = fun _ => 0 := funext fun a => by fin_cases a <;> rfl

/-! ## The result as one function of whole arrays -/

/-- Row `r`, column `q` of the layer's result, from the whole arrays. -/
def entry (agg x : S50000x256.Idx → EReal) (wl wr : S256x128.Idx → EReal) (b : S1x128.Idx → EReal) (r : Fin 50000) (q : Fin 128) : EReal :=
  (((∑ k : Fin 256, agg (ix2 r k) * wl (ix2 k q)) + ∑ k : Fin 256, x (ix2 r k) * wr (ix2 k q)) + b (ix2 (0 : Fin 1) q))

/-- The layer's result array. -/
def result (agg x : S50000x256.Idx → EReal) (wl wr : S256x128.Idx → EReal) (b : S1x128.Idx → EReal) : S50000x128.Idx → EReal :=
  fun i => entry agg x wl wr b ⟨(i 0).val, (i 0).isLt⟩ ⟨(i 1).val, (i 1).isLt⟩

/-! ## Where each window's block sits -/

/-- Decided over the 25 points: the row-blocked windows (aggregate, features, result) sit at block row `t`, the
    weights and the bias at block (0, 0). -/
theorem block_at : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- Row `p` of point `t`'s block of the aggregate is row `2000·t + p` of the array. -/
theorem agg_block (c : Dev nD) (t : Fin cfg1.N) (p : Fin 2000) (k : Fin 256) (r : Fin 50000) (hr : r.val = t.val * 2000 + p.val) :
    (iblk1 V c 0 t : Vec Ideal S2000x256 .f32) (ix2 p k) = (V c main_v45 : S50000x256.Idx → EReal) (ix2 r k) := by
  obtain ⟨e0, e1, -⟩ := block_at t
  unfold iblk1
  rw [View.read_apply]
  show V c main_v45 _ = V c main_v45 _
  refine congrArg (V c main_v45) (funext fun a => Fin.ext ?_)
  match a with
  | ⟨0, _⟩ => show win1_0.index t 0 * 2000 + 1 * p.val = r.val; rw [e0, hr]; omega
  | ⟨1, _⟩ => show win1_0.index t 1 * 256 + 1 * k.val = k.val; rw [e1]; omega

/-- Row `p` of point `t`'s block of the node features is row `2000·t + p` of the array. -/
theorem x_block (c : Dev nD) (t : Fin cfg1.N) (p : Fin 2000) (k : Fin 256) (r : Fin 50000) (hr : r.val = t.val * 2000 + p.val) :
    (iblk1 V c 1 t : Vec Ideal S2000x256 .f32) (ix2 p k) = (V c main_v26 : S50000x256.Idx → EReal) (ix2 r k) := by
  obtain ⟨-, -, e0, e1, -⟩ := block_at t
  unfold iblk1
  rw [View.read_apply]
  show V c main_v26 _ = V c main_v26 _
  refine congrArg (V c main_v26) (funext fun a => Fin.ext ?_)
  match a with
  | ⟨0, _⟩ => show win1_1.index t 0 * 2000 + 1 * p.val = r.val; rw [e0, hr]; omega
  | ⟨1, _⟩ => show win1_1.index t 1 * 256 + 1 * k.val = k.val; rw [e1]; omega

/-- Every point's block of the left weights is the whole matrix. -/
theorem wl_block (c : Dev nD) (t : Fin cfg1.N) (k : Fin 256) (q q' : Fin 128) (hq : q'.val = q.val) :
    (iblk1 V c 2 t : Vec Ideal S256x128 .f32) (ix2 k q) = (V c main_v46 : S256x128.Idx → EReal) (ix2 k q') := by
  obtain ⟨-, -, -, -, e0, e1, -⟩ := block_at t
  unfold iblk1
  rw [View.read_apply]
  show V c main_v46 _ = V c main_v46 _
  refine congrArg (V c main_v46) (funext fun a => Fin.ext ?_)
  match a with
  | ⟨0, _⟩ => show win1_2.index t 0 * 256 + 1 * k.val = k.val; rw [e0]; omega
  | ⟨1, _⟩ => show win1_2.index t 1 * 128 + 1 * q.val = q'.val; rw [e1, hq]; omega

/-- Every point's block of the right weights is the whole matrix. -/
theorem wr_block (c : Dev nD) (t : Fin cfg1.N) (k : Fin 256) (q q' : Fin 128) (hq : q'.val = q.val) :
    (iblk1 V c 3 t : Vec Ideal S256x128 .f32) (ix2 k q) = (V c main_v47 : S256x128.Idx → EReal) (ix2 k q') := by
  obtain ⟨-, -, -, -, -, -, e0, e1, -⟩ := block_at t
  unfold iblk1
  rw [View.read_apply]
  show V c main_v47 _ = V c main_v47 _
  refine congrArg (V c main_v47) (funext fun a => Fin.ext ?_)
  match a with
  | ⟨0, _⟩ => show win1_3.index t 0 * 256 + 1 * k.val = k.val; rw [e0]; omega
  | ⟨1, _⟩ => show win1_3.index t 1 * 128 + 1 * q.val = q'.val; rw [e1, hq]; omega

/-- Every point's block of the bias is its one row. -/
theorem b_block (c : Dev nD) (t : Fin cfg1.N) (q q' : Fin 128) (hq : q'.val = q.val) :
    (iblk1 V c 4 t : Vec Ideal S1x128 .f32) (ix2 (0 : Fin 1) q) = (V c main_v48 : S1x128.Idx → EReal) (ix2 (0 : Fin 1) q') := by
  obtain ⟨-, -, -, -, -, -, -, -, e0, e1, -⟩ := block_at t
  unfold iblk1
  rw [View.read_apply]
  show V c main_v48 _ = V c main_v48 _
  refine congrArg (V c main_v48) (funext fun a => Fin.ext ?_)
  match a with
  | ⟨0, _⟩ => show win1_4.index t 0 * 1 + 1 * 0 = 0; rw [e0]
  | ⟨1, _⟩ => show win1_4.index t 1 * 128 + 1 * q.val = q'.val; rw [e1, hq]; omega

/-! ## What a point writes back, and the whole array -/

/-- Point `t` writes back rows 2000·t … 2000·t + 1999 of `result` of the entry arrays. -/
theorem flushed_eq (c : Dev nD) (t : Fin cfg1.N) :
    (dat1 V c).flushed 5 t = ((cfg1.win 5).blk t).view.read (Elt Ideal)
      (result (V c main_v45) (V c main_v26) (V c main_v46) (V c main_v47) (V c main_v48)) := by
  show (cfg1.win 5).cut (grid1.coords t) ((dat1 V c).after 5 t) = _
  rw [after1_5]
  unfold out1_5
  rw [View.canon_unit_zero hz]
  simp only [View.ld_unit_zero (S := S2000x256) hz, View.ld_unit_zero (S := S256x128) hz, View.ld_unit_zero (S := S1x128) hz]
  funext j
  obtain ⟨p, q, rfl⟩ : ∃ (p : Fin 2000) (q : Fin 128), j = ix2 p q := ⟨j 0, j 1, eq_ix2 j⟩
  obtain ⟨-, -, -, -, -, -, -, -, -, -, e0, e1⟩ := block_at t
  show k1_pay1 (iblk1 V c 0 t) (iblk1 V c 1 t) (iblk1 V c 2 t) (iblk1 V c 3 t) (iblk1 V c 4 t) (ix2 p q)
      = result (V c main_v45) (V c main_v26) (V c main_v46) (V c main_v47) (V c main_v48) (((cfg1.win 5).blk t).view.emb (ix2 p q))
  refine (pay1_apply _ _ _ _ _ p q).trans ?_
  have hrow : ((((cfg1.win 5).blk t).view.emb (ix2 p q)) 0).val = t.val * 2000 + p.val := by
    show win1_5.index t 0 * 2000 + 1 * p.val = _; rw [e0]; omega
  have hcol : ((((cfg1.win 5).blk t).view.emb (ix2 p q)) 1).val = q.val := by
    show win1_5.index t 1 * 128 + 1 * q.val = _; rw [e1]; omega
  unfold Payload.output result entry
  refine (congrArg₂ (· + ·) (congrArg₂ (· + ·) (Finset.sum_congr rfl fun k _ => ?_) (Finset.sum_congr rfl fun k _ => ?_)) ?_)
  · exact congrArg₂ (· * ·) (agg_block V c t p k _ hrow) (wl_block V c t k q _ hcol)
  · exact congrArg₂ (· * ·) (x_block V c t p k _ hrow) (wr_block V c t k q _ hcol)
  · exact b_block V c t q _ hcol

/-- An index of the result array is in point `t`'s block iff each coordinate is in the block's range. -/
theorem mem_blk (t : Fin cfg1.N) (i : S50000x128.Idx) :
    i ∈ ((cfg1.win 5).blk t).view.set ↔ ∀ a : Fin 2, win1_5.index t a * S2000x128.size a ≤ (i a).val ∧ (i a).val < win1_5.index t a * S2000x128.size a + S2000x128.size a := by
  show i ∈ ((View.whole main_v49).slice (win1_5.rect t)).set ↔ _
  rw [View.set_slice_whole, Rect.mem_set_unit]
  exact Iff.rfl

/-- After the grid the result array is `result` of the entry arrays: row `r` is covered by point `r / 2000`. -/
theorem final (c : Dev nD) : (dat1 V c).arrAt 5 cfg1.N
    = result (V c main_v45) (V c main_v26) (V c main_v46) (V c main_v47) (V c main_v48) :=
  (dat1 V c).arrAt_eq_of_cover 5 _ (fun t _ => flushed_eq V c t) fun i => by
    have hi0 : (i 0).val < 50000 := (i 0).isLt
    have hi1 : (i 1).val < 128 := (i 1).isLt
    have hN : cfg1.N = 25 := N_1
    have ht : (i 0).val / 2000 < cfg1.N := by rw [hN]; omega
    obtain ⟨-, -, -, -, -, -, -, -, -, -, e0, e1⟩ := block_at ⟨(i 0).val / 2000, ht⟩
    refine ⟨⟨(i 0).val / 2000, ht⟩, flush1_5 _, ?_⟩
    rw [mem_blk]
    intro a
    match a with
    | ⟨0, _⟩ =>
      show win1_5.index ⟨(i 0).val / 2000, ht⟩ 0 * 2000 ≤ (i 0).val ∧ (i 0).val < win1_5.index ⟨(i 0).val / 2000, ht⟩ 0 * 2000 + 2000
      rw [e0]; show (i 0).val / 2000 * 2000 ≤ (i 0).val ∧ (i 0).val < (i 0).val / 2000 * 2000 + 2000; omega
    | ⟨1, _⟩ =>
      show win1_5.index ⟨(i 0).val / 2000, ht⟩ 1 * 128 ≤ (i 1).val ∧ (i 1).val < win1_5.index ⟨(i 0).val / 2000, ht⟩ 1 * 128 + 128
      rw [e1]; omega

end Cert.KernelIdeal.Layer2

end
-- ==== Proof.Model.lean ====
/-
  The two-layer mean-aggregation network both programs compute, as one function of the eight arguments.

      hidden = max((mean(x) · Wl3ᵀ + x · Wr3ᵀ) + b3, 0)          over [50000, 256]
      output = (mean(hidden) · Wl4ᵀ + hidden · Wr4ᵀ) + b4         over [50000, 128]

  where mean(·) is the mean over incoming edges of the edge list. The projections are the row-by-column sums of
  Layer1 / Layer2; the means, the transposes and the bias rows are the shared host functions, never opened.
-/
import proofs.«109922_j32959579030042_1_alg».proof.Proof.Layer1
import proofs.«109922_j32959579030042_1_alg».proof.Proof.Layer2
import proofs.«109922_j32959579030042_1_alg».proof.Proof.Shared

noncomputable section

namespace Cert.Model

open Idealize.ShloMosaic Cert.KernelIdeal
open Cert.Shared (meanInput meanHidden tr1 tr2 row1 row2)

/-- The hidden layer. -/
def hiddenLayer (x : S50000x128.Idx → EReal) (e : (⟨S2x800000, .i32⟩ : BufTy).Contents (Elt Ideal))
    (wl : S256x128.Idx → EReal) (b : S256.Idx → EReal) (wr : S256x128.Idx → EReal) : S50000x256.Idx → EReal :=
  Layer1.result (meanInput x e) x (tr1 wl) (tr1 wr) (row1 b)

/-- The network's output. -/
def outputLayer (x : S50000x128.Idx → EReal) (e : (⟨S2x800000, .i32⟩ : BufTy).Contents (Elt Ideal))
    (wl3 : S256x128.Idx → EReal) (b3 : S256.Idx → EReal) (wr3 : S256x128.Idx → EReal)
    (wl4 : S128x256.Idx → EReal) (b4 : S128.Idx → EReal) (wr4 : S128x256.Idx → EReal) : S50000x128.Idx → EReal :=
  Layer2.result (meanHidden (hiddenLayer x e wl3 b3 wr3) e) (hiddenLayer x e wl3 b3 wr3) (tr2 wl4) (tr2 wr4) (row2 b4)

end Cert.Model

end
-- ==== Proof.KernelValue.lean ====
/-
  The kernel program computes the model.

  The last segment boundary's contents at the result buffer are what the second grid's write-backs leave: the
  layer-2 projection of the arrays that grid is entered with. Those are what the second host stretch makes of the
  first grid's exit contents: the hidden mean aggregate of the hidden features, the transposed layer-2 weights,
  the layer-2 bias row. The hidden features are what the first grid's write-backs leave: the layer-1 projection
  of what the first host stretch makes of the launch memory. Walking back boundary by boundary gives the model's
  output of the eight arguments.
-/
import proofs.«109922_j32959579030042_1_alg».proof.Proof.Gen.KernelIdeal.Frame
import proofs.«109922_j32959579030042_1_alg».proof.Proof.KernelHost
import proofs.«109922_j32959579030042_1_alg».proof.Proof.Model

set_option maxRecDepth 16384

noncomputable section

namespace Cert.KernelIdeal.KernelValue

open Idealize.ShloMosaic Idealize.ShloMosaic.TcCoe Idealize.SL.Sem Idealize.ShloMosaic.StableHlo
open Cert.KernelIdeal Cert.KernelIdeal.Gen Cert.KernelIdeal.HostSide
open Cert.Shared (meanInput meanHidden sources dests tr1 tr2 row1 row2)

variable (m : (ℓ : Loc nD τ sig) → Buf (Elt Ideal) ℓ) (ρ : Dev nD → PrngReg)

/-- The first grid's result: the model's hidden layer of the arguments. -/
theorem hidden_eq (c : Dev nD) : (W2 m ρ c (Proc.devRef .tc main_v26) : S50000x256.Idx → EReal)
    = Cert.Model.hiddenLayer (m ((c : Thread nD τ).loc main_arg0)) (m ((c : Thread nD τ).loc main_arg1))
        (m ((c : Thread nD τ).loc main_arg2)) (m ((c : Thread nD τ).loc main_arg3)) (m ((c : Thread nD τ).loc main_arg4)) := by
  refine (W2_arr m ρ c 5).trans ((Layer1.final (V1 m ρ) c).trans ?_)
  have h22 : (V1 m ρ c main_v22 : S50000x128.Idx → EReal) = meanInput (m ((c : Thread nD τ).loc main_arg0)) (m ((c : Thread nD τ).loc main_arg1)) :=
    first_mean (W0 m ρ c)
  have h0 : (V1 m ρ c main_arg0 : S50000x128.Idx → EReal) = m ((c : Thread nD τ).loc main_arg0) := first_x (W0 m ρ c)
  have h23 : (V1 m ρ c main_v23 : S128x256.Idx → EReal) = tr1 (m ((c : Thread nD τ).loc main_arg2)) := first_wl (W0 m ρ c)
  have h24 : (V1 m ρ c main_v24 : S128x256.Idx → EReal) = tr1 (m ((c : Thread nD τ).loc main_arg4)) := first_wr (W0 m ρ c)
  have h25 : (V1 m ρ c main_v25 : S1x256.Idx → EReal) = row1 (m ((c : Thread nD τ).loc main_arg3)) := first_b (W0 m ρ c)
  rw [h22, h0, h23, h24, h25]
  rfl

/-- The second grid's result, the program's result buffer at the last boundary: the model's output of the arguments. -/
theorem output_eq (c : Dev nD) : (W4 m ρ c (Proc.devRef .tc main_v49) : S50000x128.Idx → EReal)
    = Cert.Model.outputLayer (m ((c : Thread nD τ).loc main_arg0)) (m ((c : Thread nD τ).loc main_arg1))
        (m ((c : Thread nD τ).loc main_arg2)) (m ((c : Thread nD τ).loc main_arg3)) (m ((c : Thread nD τ).loc main_arg4))
        (m ((c : Thread nD τ).loc main_arg5)) (m ((c : Thread nD τ).loc main_arg6)) (m ((c : Thread nD τ).loc main_arg7)) := by
  refine (W4_arr m ρ c 5).trans ((Layer2.final (V3 m ρ) c).trans ?_)
  -- the sources and destinations the second stretch reads are the first stretch's, of the argument edge list
  have hs : (W2 m ρ c (Proc.devRef .tc main_v1) : (⟨S800000, .i32⟩ : BufTy).Contents (Elt Ideal)) = sources (m ((c : Thread nD τ).loc main_arg1)) :=
    (W2_of_ne m ρ c main_v1 (by decide)).trans (first_src (W0 m ρ c))
  have hd : (W2 m ρ c (Proc.devRef .tc main_v3) : (⟨S800000, .i32⟩ : BufTy).Contents (Elt Ideal)) = dests (m ((c : Thread nD τ).loc main_arg1)) :=
    (W2_of_ne m ρ c main_v3 (by decide)).trans (first_dst (W0 m ρ c))
  have h5 : (W2 m ρ c (Proc.devRef .tc main_arg5) : S128x256.Idx → EReal) = m ((c : Thread nD τ).loc main_arg5) :=
    (W2_of_ne m ρ c main_arg5 (by decide)).trans (first_w5 (W0 m ρ c))
  have h7 : (W2 m ρ c (Proc.devRef .tc main_arg7) : S128x256.Idx → EReal) = m ((c : Thread nD τ).loc main_arg7) :=
    (W2_of_ne m ρ c main_arg7 (by decide)).trans (first_w7 (W0 m ρ c))
  have h6 : (W2 m ρ c (Proc.devRef .tc main_arg6) : S128.Idx → EReal) = m ((c : Thread nD τ).loc main_arg6) :=
    (W2_of_ne m ρ c main_arg6 (by decide)).trans (first_b6 (W0 m ρ c))
  have h45 : (V3 m ρ c main_v45 : S50000x256.Idx → EReal)
      = meanHidden (W2 m ρ c (Proc.devRef .tc main_v26)) (m ((c : Thread nD τ).loc main_arg1)) :=
    second_mean (W2 m ρ c) _ hs hd
  have h26 : (V3 m ρ c main_v26 : S50000x256.Idx → EReal) = W2 m ρ c (Proc.devRef .tc main_v26) := second_h (W2 m ρ c)
  have h46 : (V3 m ρ c main_v46 : S256x128.Idx → EReal) = tr2 (m ((c : Thread nD τ).loc main_arg5)) :=
    (second_wl (W2 m ρ c)).trans (congrArg tr2 h5)
  have h47 : (V3 m ρ c main_v47 : S256x128.Idx → EReal) = tr2 (m ((c : Thread nD τ).loc main_arg7)) :=
    (second_wr (W2 m ρ c)).trans (congrArg tr2 h7)
  have h48 : (V3 m ρ c main_v48 : S1x128.Idx → EReal) = row2 (m ((c : Thread nD τ).loc main_arg6)) :=
    (second_b (W2 m ρ c)).trans (congrArg row2 h6)
  rw [h45, h26, h46, h47, h48, hidden_eq m ρ c]
  rfl

end Cert.KernelIdeal.KernelValue

end
-- ==== Proof.RefSide.lean ====
/-
  The reference computes the model.

  Read one operation at a time, the reference's hidden layer is, entry by entry,
  max((∑ₖ mean(x)[r,k]·Wl3ᵀ[k,q] + b3[q]) + ∑ₖ x[r,k]·Wr3ᵀ[k,q], 0), and its output the same without the maximum:
  the model's entries with the bias added before the second sum instead of after it. Addition on the extended
  reals is commutative and associative, so (a + b) + c = (a + c) + b with no finiteness needed.
-/
import proofs.«109922_j32959579030042_1_alg».proof.Proof.Gen.ReferenceIdeal.Run
import proofs.«109922_j32959579030042_1_alg».proof.Proof.Gen.ReferenceIdeal.Read
import proofs.«109922_j32959579030042_1_alg».proof.Proof.Model

noncomputable section

namespace Cert.RefSide

open Idealize.ShloMosaic Idealize.ShloMosaic.ValueIdx
open Cert.ReferenceIdeal Cert.ReferenceIdeal.Read
open Cert.Shared (meanInput meanHidden tr1 tr2 row1 row2)

/-- The reference's hidden layer is the model's. -/
theorem hidden_eq (x0 : (⟨S50000x128, .f32⟩ : BufTy).Contents (Elt Ideal)) (x1 : (⟨S2x800000, .i32⟩ : BufTy).Contents (Elt Ideal))
    (x2 : (⟨S256x128, .f32⟩ : BufTy).Contents (Elt Ideal)) (x3 : (⟨S256, .f32⟩ : BufTy).Contents (Elt Ideal)) (x4 : (⟨S256x128, .f32⟩ : BufTy).Contents (Elt Ideal)) :
    val_main_v31 (F := Ideal) x0 x1 x2 x3 x4 = Cert.Model.hiddenLayer x0 x1 x2 x3 x4 := by
  funext i
  have el : ∀ k, lidx_main_v24 i k = ix2 (⟨(i 0).val, (i 0).isLt⟩ : Fin 50000) k :=
    fun k => funext fun a => Fin.ext (by match a with | ⟨0, _⟩ => rfl | ⟨1, _⟩ => rfl)
  have er : ∀ k, ridx_main_v24 i k = ix2 k (⟨(i 1).val, (i 1).isLt⟩ : Fin 256) :=
    fun k => funext fun a => Fin.ext (by match a with | ⟨0, _⟩ => rfl | ⟨1, _⟩ => rfl)
  have el' : ∀ k, lidx_main_v29 i k = ix2 (⟨(i 0).val, (i 0).isLt⟩ : Fin 50000) k :=
    fun k => funext fun a => Fin.ext (by match a with | ⟨0, _⟩ => rfl | ⟨1, _⟩ => rfl)
  have er' : ∀ k, ridx_main_v29 i k = ix2 k (⟨(i 1).val, (i 1).isLt⟩ : Fin 256) :=
    fun k => funext fun a => Fin.ext (by match a with | ⟨0, _⟩ => rfl | ⟨1, _⟩ => rfl)
  have eb : idx_main_v26 i = ix2 (0 : Fin 1) (⟨(i 1).val, (i 1).isLt⟩ : Fin 256) :=
    funext fun a => Fin.ext (by match a with | ⟨0, _⟩ => rfl | ⟨1, _⟩ => rfl)
  rw [val_main_v31_apply, val_main_v30_apply, val_main_v27_apply, val_main_v24_apply, val_main_v29_apply, val_main_v26_apply,
    val_main_call0_v0_apply, val_main_call0_cst_apply]
  unfold Cert.Model.hiddenLayer Cert.KernelIdeal.Layer1.result Cert.KernelIdeal.Layer1.entry
  simp only [el, er, el', er', eb, Ideal.maximumf_def, Ideal.addf_def]
  rw [add_right_comm]
  rfl

/-- The reference's output is the model's. -/
theorem output_eq (x0 : (⟨S50000x128, .f32⟩ : BufTy).Contents (Elt Ideal)) (x1 : (⟨S2x800000, .i32⟩ : BufTy).Contents (Elt Ideal))
    (x2 : (⟨S256x128, .f32⟩ : BufTy).Contents (Elt Ideal)) (x3 : (⟨S256, .f32⟩ : BufTy).Contents (Elt Ideal)) (x4 : (⟨S256x128, .f32⟩ : BufTy).Contents (Elt Ideal))
    (x5 : (⟨S128x256, .f32⟩ : BufTy).Contents (Elt Ideal)) (x6 : (⟨S128, .f32⟩ : BufTy).Contents (Elt Ideal)) (x7 : (⟨S128x256, .f32⟩ : BufTy).Contents (Elt Ideal)) :
    val_main_v62 (F := Ideal) x0 x1 x2 x3 x4 x5 x6 x7 = Cert.Model.outputLayer x0 x1 x2 x3 x4 x5 x6 x7 := by
  funext i
  have el : ∀ k, lidx_main_v56 i k = ix2 (⟨(i 0).val, (i 0).isLt⟩ : Fin 50000) k :=
    fun k => funext fun a => Fin.ext (by match a with | ⟨0, _⟩ => rfl | ⟨1, _⟩ => rfl)
  have er : ∀ k, ridx_main_v56 i k = ix2 k (⟨(i 1).val, (i 1).isLt⟩ : Fin 128) :=
    fun k => funext fun a => Fin.ext (by match a with | ⟨0, _⟩ => rfl | ⟨1, _⟩ => rfl)
  have el' : ∀ k, lidx_main_v61 i k = ix2 (⟨(i 0).val, (i 0).isLt⟩ : Fin 50000) k :=
    fun k => funext fun a => Fin.ext (by match a with | ⟨0, _⟩ => rfl | ⟨1, _⟩ => rfl)
  have er' : ∀ k, ridx_main_v61 i k = ix2 k (⟨(i 1).val, (i 1).isLt⟩ : Fin 128) :=
    fun k => funext fun a => Fin.ext (by match a with | ⟨0, _⟩ => rfl | ⟨1, _⟩ => rfl)
  have eb : idx_main_v58 i = ix2 (0 : Fin 1) (⟨(i 1).val, (i 1).isLt⟩ : Fin 128) :=
    funext fun a => Fin.ext (by match a with | ⟨0, _⟩ => rfl | ⟨1, _⟩ => rfl)
  rw [val_main_v62_apply, val_main_v59_apply, val_main_v56_apply, val_main_v61_apply, val_main_v58_apply,
    Cert.Shared.ref_meanHidden, hidden_eq]
  unfold Cert.Model.outputLayer Cert.KernelIdeal.Layer2.result Cert.KernelIdeal.Layer2.entry
  simp only [el, er, el', er', eb, Ideal.addf_def]
  rw [add_right_comm]
  rfl

end Cert.RefSide

end
-- ==== Proof.lean ====
/- The proof of `Cert.Claim`: a two-layer graph network with mean aggregation over an edge list — each layer
   the mean of the neighbours' features times one weight matrix, plus the node's own features times another, plus
   a bias; a maximum with zero between the layers — computed by a program of two row-blocked projection grids
   among host operations, against the plain array program.

   Over the extended reals the two agree entry by entry. The gathers, the sums over destinations, the in-degree
   clamp and the division are the same host operations on both sides and are carried as one function (Shared).
   A grid point stores (∑ₖ a[p,k]·wl[k,q] + ∑ₖ x[p,k]·wr[k,q]) + b[q] for its 2000 rows (Payload); the 25 row blocks
   tile the 50000 rows, so each grid leaves that function of its entry arrays (Layer1, Layer2); the host stretches
   supply those arrays (KernelHost) and the run names the final memory (KernelRun), which walks back to the
   model of the eight arguments (KernelValue, Model). The array program adds the bias before the second sum,
   (a + b) + c against (a + c) + b (RefSide): commutativity and associativity of addition, which hold on the
   extended reals with no finiteness, so the precondition is never opened. The ideal pass rewrote nothing, so
   the kernel's idealization is its own text and `preserves` has no conjunct. -/
import proofs.«109922_j32959579030042_1_alg».proof.Defs
import proofs.«109922_j32959579030042_1_alg».proof.Proof.Gen.Kernel
import proofs.«109922_j32959579030042_1_alg».proof.Proof.Gen.Kernel.Frame
import proofs.«109922_j32959579030042_1_alg».proof.Proof.Gen.KernelIdeal
import proofs.«109922_j32959579030042_1_alg».proof.Proof.Gen.KernelIdeal.Frame
import proofs.«109922_j32959579030042_1_alg».proof.Proof.Gen.ReferenceIdeal
import proofs.«109922_j32959579030042_1_alg».proof.Proof.Gen.ReferenceIdeal.Run
import proofs.«109922_j32959579030042_1_alg».proof.Proof.Gen.ReferenceIdeal.Read
import proofs.«109922_j32959579030042_1_alg».proof.Proof.Gen.Pre_finite_inputs
import proofs.«109922_j32959579030042_1_alg».proof.Proof.KernelRun
import proofs.«109922_j32959579030042_1_alg».proof.Proof.KernelValue
import proofs.«109922_j32959579030042_1_alg».proof.Proof.RefSide
import Idealize.ShloMosaic.Adequacy
import Idealize.ShloMosaic.Init

noncomputable section

namespace Cert.Proof

open Idealize.ShloMosaic Idealize.SL.Sem

/-- The word-level kernel program runs and keeps its arguments. -/
theorem frame_k : Cert.frame_Kernel := fun m ρ _ => Cert.Kernel.Gen.frame m ρ

/-- The idealized kernel program runs and keeps its arguments. -/
theorem frame_ki : Cert.frame_KernelIdeal := fun m ρ _ => Cert.KernelIdeal.Gen.frame m ρ

/-- The array program runs and keeps its arguments: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote no operation. -/
theorem preserves : Cert.preserves_Kernel_KernelIdeal := trivial

/-- From memories agreeing on the arguments both programs end with the model's output of the arguments. -/
theorem algebraic : Cert.algebraic_KernelIdeal_ReferenceIdeal := by
  intro m ρ m' ρ' _ hagree
  refine ⟨fun c => Cert.Model.outputLayer
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7)), ?_, ?_⟩
  · -- the kernel program: the final memory is the last boundary's contents; read the result and the arguments
    refine (θ_run Cert.KernelIdeal.defs _ _).mono (fun r h c => ?_) (Cert.KernelIdeal.ValueRun.run_boundary m ρ)
    exact ⟨(h c _ (Cert.KernelIdeal.Gen.mem_uc Cert.KernelIdeal.main_v49 (by decide))).trans (Cert.KernelIdeal.KernelValue.output_eq m ρ c),
      (h c _ (Cert.KernelIdeal.Gen.mem_uc Cert.KernelIdeal.main_arg0 (by decide))).trans (Cert.KernelIdeal.Gen.W4_main_arg0 m ρ c),
      (h c _ (Cert.KernelIdeal.Gen.mem_uc Cert.KernelIdeal.main_arg1 (by decide))).trans (Cert.KernelIdeal.Gen.W4_main_arg1 m ρ c),
      (h c _ (Cert.KernelIdeal.Gen.mem_uc Cert.KernelIdeal.main_arg2 (by decide))).trans (Cert.KernelIdeal.Gen.W4_main_arg2 m ρ c),
      (h c _ (Cert.KernelIdeal.Gen.mem_uc Cert.KernelIdeal.main_arg3 (by decide))).trans (Cert.KernelIdeal.Gen.W4_main_arg3 m ρ c),
      (h c _ (Cert.KernelIdeal.Gen.mem_uc Cert.KernelIdeal.main_arg4 (by decide))).trans (Cert.KernelIdeal.Gen.W4_main_arg4 m ρ c),
      (h c _ (Cert.KernelIdeal.Gen.mem_uc Cert.KernelIdeal.main_arg5 (by decide))).trans (Cert.KernelIdeal.Gen.W4_main_arg5 m ρ c),
      (h c _ (Cert.KernelIdeal.Gen.mem_uc Cert.KernelIdeal.main_arg6 (by decide))).trans (Cert.KernelIdeal.Gen.W4_main_arg6 m ρ c),
      (h c _ (Cert.KernelIdeal.Gen.mem_uc Cert.KernelIdeal.main_arg7 (by decide))).trans (Cert.KernelIdeal.Gen.W4_main_arg7 m ρ c)⟩
  · -- the array program: its run's term is the model of its own arguments, which are the kernel's
    refine (θ_run Cert.ReferenceIdeal.defs _ _).mono (fun _ h c => ⟨(h c).1.trans ?_, (h c).2⟩)
      (Cert.ReferenceIdeal.Value.run (F := Ideal) m' ρ')
    obtain ⟨e0, e1, e2, e3, e4, e5, e6, e7⟩ := hagree c
    rw [Cert.ReferenceIdeal.Read.val_main_v62_eq, e0, e1, e2, e3, e4, e5, e6, e7]
    exact Cert.RefSide.output_eq _ _ _ _ _ _ _ _

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
